-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S64x64 : Shape := ⟨2, ![64, 64]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x32x64 .f32) (main_arg1 : FVec F S64x64 .f32) (main_arg2 : FVec F S64x64 .f32) (main_arg3 : FVec F S64x64 .f32) (main_arg4 : FVec F S64x64 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x32x64 : Shape := ⟨3, ![16384, 32, 64]⟩
abbrev S64x64 : Shape := ⟨2, ![64, 64]⟩
abbrev S64x256 : Shape := ⟨2, ![64, 256]⟩
abbrev S128x32x64 : Shape := ⟨3, ![128, 32, 64]⟩
abbrev S4096x64 : Shape := ⟨2, ![4096, 64]⟩
abbrev S4096x256 : Shape := ⟨2, ![4096, 256]⟩
abbrev S128x32x256 : Shape := ⟨3, ![128, 32, 256]⟩
abbrev S128x32x32 : Shape := ⟨3, ![128, 32, 32]⟩
abbrev S128x32 : Shape := ⟨2, ![128, 32]⟩
abbrev S128x32x1 : Shape := ⟨3, ![128, 32, 1]⟩

abbrev nBuf : Space → Nat
  | .hbm => 7
  | .vmem => 5
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x256, .f32⟩
  | .hbm, ⟨6, _⟩ => ⟨S16384x32x64, .f32⟩
  | .local _ .vmem, ⟨0, _⟩ => ⟨S128x32x64, .f32⟩
  | .local _ .vmem, ⟨1, _⟩ => ⟨S128x32x64, .f32⟩
  | .local _ .vmem, ⟨2, _⟩ => ⟨S64x256, .f32⟩
  | .local _ .vmem, ⟨3, _⟩ => ⟨S128x32x64, .f32⟩
  | .local _ .vmem, ⟨4, _⟩ => ⟨S128x32x64, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S64x64_S64x64_S64x64_S64x64_S64x256_d1 : Shape.Concatenates [S64x64, S64x64, S64x64, S64x64] S64x256 1
  inb_S128x32x64_S128x32x64_0_0_0 : ∀ a, (![0, 0, 0] : Fin 3 → Nat) a + S128x32x64.size a ≤ S128x32x64.size a
  h_S128x32x64 : 0 < S128x32x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S128x32x64_S4096x64 : S128x32x64.ShapeCasts S4096x64
  shapeCasts_S4096x256_S128x32x256 : S4096x256.ShapeCasts S128x32x256
  slices_S128x32x256_o0_0_0_S128x32x32 : S128x32x256.Slices ![0, 0, 0] S128x32x32
  slices_S128x32x256_o0_0_64_S128x32x32 : S128x32x256.Slices ![0, 0, 64] S128x32x32
  slices_S128x32x256_o0_0_128_S128x32x32 : S128x32x256.Slices ![0, 0, 128] S128x32x32
  slices_S128x32x256_o0_0_192_S128x32x32 : S128x32x256.Slices ![0, 0, 192] S128x32x32
  reduces_S128x32x32_S128x32 : S128x32x32.Reduces [2] S128x32
  shapeCasts_S128x32_S128x32x1 : S128x32.ShapeCasts S128x32x1
  broadcasts_S128x32x1_S128x32x32 : S128x32x1.Broadcasts S128x32x32
  inb_S128x32x64_S128x32x32_0_0_0 : ∀ a, (![0, 0, 0] : Fin 3 → Nat) a + S128x32x32.size a ≤ S128x32x64.size a
  h_S128x32x32 : 0 < S128x32x32.numel
  slices_S128x32x256_o0_0_32_S128x32x32 : S128x32x256.Slices ![0, 0, 32] S128x32x32
  slices_S128x32x256_o0_0_96_S128x32x32 : S128x32x256.Slices ![0, 0, 96] S128x32x32
  slices_S128x32x256_o0_0_160_S128x32x32 : S128x32x256.Slices ![0, 0, 160] S128x32x32
  slices_S128x32x256_o0_0_224_S128x32x32 : S128x32x256.Slices ![0, 0, 224] S128x32x32
  inb_S128x32x64_S128x32x32_0_0_32 : ∀ a, (![0, 0, 32] : Fin 3 → Nat) a + S128x32x32.size a ≤ S128x32x64.size a
  dot_S4096x64_S64x256_S4096x256_1_0_0_1_n_n_wf : DotDims.WF S4096x64 S64x256 S4096x256 [1] [0] [0] [1] [] []
  dot_S128x32x32_S128x32x32_S128x32x32_2_2_1_1_0_0_wf : DotDims.WF S128x32x32 S128x32x32 S128x32x32 [2] [2] [1] [1] [0] [0]
  dot_S128x32x32_S128x32x32_S128x32x32_2_1_1_2_0_0_wf : DotDims.WF S128x32x32 S128x32x32 S128x32x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S16384x32x64.size a
  hwx0_0 : ∀ i : grid0.Coords, EltTy.bits .f32 = 32 ∨ (Rect.block (s := S16384x32x64) S128x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x64.size a ≤ S16384x32x64.size a
  hwx0_2 : ∀ i : grid0.Coords, EltTy.bits .f32 = 32 ∨ (Rect.block (s := S16384x32x64) S128x32x64.size (cc0_transform_2 i) (hinb0_2 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S128x32x32_S128x32x32_S128x32x32_2_2_1_1_0_0 : DotDims S128x32x32 S128x32x32 S128x32x32 where
  lhsContracting := [2]
  rhsContracting := [2]
  lhsNonContracting := [1]
  rhsNonContracting := [1]
  lhsBatch := [0]
  rhsBatch := [0]
  wf := dot_S128x32x32_S128x32x32_S128x32x32_2_2_1_1_0_0_wf
def dot_S128x32x32_S128x32x32_S128x32x32_2_1_1_2_0_0 : DotDims S128x32x32 S128x32x32 S128x32x32 where
  lhsContracting := [2]
  rhsContracting := [1]
  lhsNonContracting := [1]
  rhsNonContracting := [2]
  lhsBatch := [0]
  rhsBatch := [0]
  wf := dot_S128x32x32_S128x32x32_S128x32x32_2_1_1_2_0_0_wf

abbrev win0_0 : Pipeline.Window sig grid0 :=
  Pipeline.Window.ofSpec (Memref.whole main_arg0) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S64x64 : Shape := ⟨2, ![64, 64]⟩
abbrev S16384x32x2x32 : Shape := ⟨4, ![16384, 32, 2, 32]⟩
abbrev S16384x2x32x32 : Shape := ⟨4, ![16384, 2, 32, 32]⟩
abbrev S_ : Shape := ⟨0, ![]⟩
abbrev S16384x2x32 : Shape := ⟨3, ![16384, 2, 32]⟩
abbrev S16384x2x32x1 : Shape := ⟨4, ![16384, 2, 32, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x32x64, .f32⟩
  | .hbm, ⟨6, _⟩ => ⟨S16384x32x2x32, .f32⟩
  | .hbm, ⟨7, _⟩ => ⟨S16384x2x32x32, .f32⟩
  | .hbm, ⟨8, _⟩ => ⟨S16384x32x64, .f32⟩
  | .hbm, ⟨9, _⟩ => ⟨S16384x32x2x32, .f32⟩
  | .hbm, ⟨10, _⟩ => ⟨S16384x2x32x32, .f32⟩
  | .hbm, ⟨11, _⟩ => ⟨S16384x32x64, .f32⟩
  | .hbm, ⟨12, _⟩ => ⟨S16384x32x2x32, .f32⟩
  | .hbm, ⟨13, _⟩ => ⟨S16384x2x32x32, .f32⟩
  | .hbm, ⟨14, _⟩ => ⟨S16384x2x32x32, .f32⟩
  | .hbm, ⟨15, _⟩ => ⟨S_, .f32⟩
  | .hbm, ⟨16, _⟩ => ⟨S16384x2x32, .f32⟩
  | .hbm, ⟨17, _⟩ => ⟨S_, .f32⟩
  | .hbm, ⟨18, _⟩ => ⟨S16384x2x32, .f32⟩
  | .hbm, ⟨19, _⟩ => ⟨S16384x2x32, .f32⟩
  | .hbm, ⟨20, _⟩ => ⟨S16384x2x32x1, .f32⟩
  | .hbm, ⟨21, _⟩ => ⟨S16384x2x32x32, .f32⟩
  | .hbm, ⟨22, _⟩ => ⟨S16384x2x32x32, .f32⟩
  | .hbm, ⟨23, _⟩ => ⟨S16384x2x32x32, .f32⟩
  | .hbm, ⟨24, _⟩ => ⟨S_, .f32⟩
  | .hbm, ⟨25, _⟩ => ⟨S16384x2x32, .f32⟩
  | .hbm, ⟨26, _⟩ => ⟨S16384x2x32x1, .f32⟩
  | .hbm, ⟨27, _⟩ => ⟨S16384x2x32x32, .f32⟩
  | .hbm, ⟨28, _⟩ => ⟨S16384x2x32x32, .f32⟩
  | .hbm, ⟨29, _⟩ => ⟨S16384x2x32x32, .f32⟩
  | .hbm, ⟨30, _⟩ => ⟨S16384x32x2x32, .f32⟩
  | .hbm, ⟨31, _⟩ => ⟨S16384x32x64, .f32⟩
  | .hbm, ⟨32, _⟩ => ⟨S16384x32x64, .f32⟩
  | .hbm, ⟨33, _⟩ => ⟨S16384x32x64, .f32⟩
  | .hbm, ⟨34, _⟩ => ⟨S_, .f32⟩
  | .hbm, ⟨35, _⟩ => ⟨S16384x32x64, .f32⟩
  | .hbm, ⟨36, _⟩ => ⟨S16384x32x64, .f32⟩
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S16384x32x64_S16384x32x2x32 : S16384x32x64.ShapeCasts S16384x32x2x32
  transposes_S16384x32x2x32_S16384x2x32x32_0_2_1_3 : S16384x32x2x32.Transposes [0, 2, 1, 3] S16384x2x32x32
  reducesTo_S16384x2x32x32_S16384x2x32_d3 : S16384x2x32x32.ReducesTo [3] S16384x2x32
  h_S_ : 0 < S_.numel
  bcast_S_S16384x2x32 : S_.BroadcastsInDim S16384x2x32 (![] : Fin 0 → Fin S16384x2x32.rank)
  bcast_S16384x2x32_S16384x2x32x1_0_1_2 : S16384x2x32.BroadcastsInDim S16384x2x32x1 (![0, 1, 2] : Fin 3 → Fin S16384x2x32x1.rank)
  bcast_S16384x2x32x1_S16384x2x32x32_0_1_2_3 : S16384x2x32x1.BroadcastsInDim S16384x2x32x32 (![0, 1, 2, 3] : Fin 4 → Fin S16384x2x32x32.rank)
  transposes_S16384x2x32x32_S16384x32x2x32_0_2_1_3 : S16384x2x32x32.Transposes [0, 2, 1, 3] S16384x32x2x32
  shapeCasts_S16384x32x2x32_S16384x32x64 : S16384x32x2x32.ShapeCasts S16384x32x64
  bcast_S_S16384x32x64 : S_.BroadcastsInDim S16384x32x64 (![] : Fin 0 → Fin S16384x32x64.rank)
  dot_S16384x32x64_S64x64_S16384x32x64_2_0_01_1_n_n_wf : DotDims.WF S16384x32x64 S64x64 S16384x32x64 [2] [0] [0, 1] [1] [] []
  dot_S16384x2x32x32_S16384x2x32x32_S16384x2x32x32_3_3_2_2_01_01_wf : DotDims.WF S16384x2x32x32 S16384x2x32x32 S16384x2x32x32 [3] [3] [2] [2] [0, 1] [0, 1]
  dot_S16384x2x32x32_S16384x2x32x32_S16384x2x32x32_3_2_2_3_01_01_wf : DotDims.WF S16384x2x32x32 S16384x2x32x32 S16384x2x32x32 [3] [2] [2] [3] [0, 1] [0, 1]

variable [Facts₀]

def dot_S16384x32x64_S64x64_S16384x32x64_2_0_01_1_n_n : DotDims S16384x32x64 S64x64 S16384x32x64 where
  lhsContracting := [2]
  rhsContracting := [0]
  lhsNonContracting := [0, 1]
  rhsNonContracting := [1]
  lhsBatch := []
  rhsBatch := []
  wf := dot_S16384x32x64_S64x64_S16384x32x64_2_0_01_1_n_n_wf
def dot_S16384x2x32x32_S16384x2x32x32_S16384x2x32x32_3_3_2_2_01_01 : DotDims S16384x2x32x32 S16384x2x32x32 S16384x2x32x32 where
  lhsContracting := [3]
  rhsContracting := [3]
  lhsNonContracting := [2]
  rhsNonContracting := [2]
  lhsBatch := [0, 1]
  rhsBatch := [0, 1]
  wf := dot_S16384x2x32x32_S16384x2x32x32_S16384x2x32x32_3_3_2_2_01_01_wf
def dot_S16384x2x32x32_S16384x2x32x32_S16384x2x32x32_3_2_2_3_01_01 : DotDims S16384x2x32x32 S16384x2x32x32 S16384x2x32x32 where
  lhsContracting := [3]
  rhsContracting := [2]
  lhsNonContracting := [2]
  rhsNonContracting := [3]
  lhsBatch := [0, 1]
  rhsBatch := [0, 1]
  wf := dot_S16384x2x32x32_S16384x2x32x32_S16384x2x32x32_3_2_2_3_01_01_wf

class Facts : Prop extends Facts₀ where

variable [Facts]
-- ==== Proof.KernelRun.lean ====
/-
  The run of `Kernel`'s @main, at any float instance: the one host line (the four 64×64 weights laid side by
  side into one 64×256 array), then the pipelined region over its 128 grid points.

  What is proved here.  (1) The region finds the input array and the four weights as launched — the host
  line writes only the fused-weight buffer — and finds that buffer at the concatenation.  (2) At a grid
  point the body is handed the point's 128×32×64 block of the input and the whole fused weight, and an
  output buffer holding anything; it reads the output buffer (values it never uses) and stores two
  128×32×32 pieces, lanes 0–31 and lanes 32–63, which tile the 128×32×64 output block: so what the
  buffer holds afterwards is a function of the two input blocks alone (the later piece laid over the
  earlier; they do not overlap).  (3) With that as the per-point description, the pipeline's launch
  theorem gives the whole run: every weakly fair execution terminates without a fault, each argument array
  ends as launched, and the result array ends at the blocks the points wrote back.
-/
import proofs.«100594_j83674552861142_2_alg».proof.Proof.Gen.Kernel.Launch
import proofs.«100594_j83674552861142_2_alg».proof.Proof.Gen.Kernel.Skeleton
import proofs.«100594_j83674552861142_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host line. -/
abbrev V (c : Dev nD) (b : Ref sig .tc) : Buf (Elt F) ((c : Thread nD τ).loc b) :=
  StableHlo.after (List.flatten [hostOps0]) (fun b => m (c, b)) b

/-- The host line allocates nothing. -/
theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host line writes the fused-weight buffer only: the region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds the point's block at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The fused weight's staging buffer holds the whole weight at every point: fetched at the first, and its block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the run's post -/

/-- From a run whose final state has the pipeline's arrays at the proof data's and every other unscoped buffer as the
    region found it: the staged input is an input window's array (never written back), the four weights are buffers no
    window stages, and the region found all five as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole input block, the whole fused weight, and the two halves (lanes 0–31, lanes 32–63) of the output block. -/
abbrev rIn : Rect S128x32x64 := Rect.unit (s := S128x32x64) ![0, 0, 0] S128x32x64.size inb_S128x32x64_S128x32x64_0_0_0
abbrev rWt : Rect S64x256 := Rect.unit (s := S64x256) ![0, 0] S64x256.size inb_S64x256_S64x256_0_0
abbrev rLo : Rect S128x32x64 := Rect.unit (s := S128x32x64) ![0, 0, 0] S128x32x32.size inb_S128x32x64_S128x32x32_0_0_0
abbrev rHi : Rect S128x32x64 := Rect.unit (s := S128x32x64) ![0, 0, 32] S128x32x32.size inb_S128x32x64_S128x32x32_0_0_32

/-! ## What the body leaves in the output window's buffer -/

/-- The output block after the body, from the two input blocks: head 1's piece (the later store) over lanes 32–63,
    head 0's piece over lanes 0–31. -/
def outBlk (x0 : Vec F S128x32x64 .f32) (x1 : Vec F S64x256 .f32) : Vec F S128x32x64 .f32 :=
  View.canon [⟨rHi, k0_pay1 (k0_pay4 (View.ld x0 rIn) (View.ld x1 rWt)) (k0_pay5 (View.ld x0 rIn) (View.ld x1 rWt)) (k0_pay6 (View.ld x0 rIn) (View.ld x1 rWt))⟩,
    ⟨rLo, k0_pay3 (View.ld x0 rIn) (View.ld x1 rWt)⟩]

/-- The two pieces tile the block, so they cover it. -/
theorem cover_out (p0 : Vec F S128x32x32 .f32) (p1 : Vec F S128x32x32 .f32) (y : S128x32x64.Idx) :
    ∃ pc ∈ ([⟨rHi, p0⟩, ⟨rLo, p1⟩] : List (View.Piece (Elt F) S128x32x64 .f32)), y ∈ pc.1.set :=
  View.cover_of_tiled [⟨rHi, p0⟩, ⟨rLo, p1⟩] S128x32x32.size (by rfl) y

/-! ## The body's triple -/

set_option maxHeartbeats 1000000 in
/-- The body on whole staging buffers — the inputs' at read contents `x0`, `x1`, the output's at anything — runs to
    the continuation holding the inputs' as they were and the output's at `outBlk x0 x1`. -/
theorem sound_kernel (c : Dev nD) (E : Set ℕ) (i : grid0.Coords) (arg1 : Memref sig .tc .vmem S128x32x64 .f32) (harg1 : arg1.IsWhole) (arg2 : Memref sig .tc .vmem S64x256 .f32) (harg2 : arg2.IsWhole) (arg3 : Memref sig .tc .vmem S128x32x64 .f32) (harg3 : arg3.IsWhole)
    (x0 : Vec F S128x32x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover_out _ _)

/-! ## The pipeline's proof data -/

/-- The arrays as the region finds them; after the body at point `t` each input's buffer at its block and the
    output's at `outBlk` of the two; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KernelIdealRun.lean ====
/-
  The run of `KernelIdeal`'s @main, at any float instance: the one host line (the four 64×64 weights laid side by
  side into one 64×256 array), then the pipelined region over its 128 grid points.

  What is proved here.  (1) The region finds the input array and the four weights as launched — the host
  line writes only the fused-weight buffer — and finds that buffer at the concatenation.  (2) At a grid
  point the body is handed the point's 128×32×64 block of the input and the whole fused weight, and an
  output buffer holding anything; it reads the output buffer (values it never uses) and stores two
  128×32×32 pieces, lanes 0–31 and lanes 32–63, which tile the 128×32×64 output block: so what the
  buffer holds afterwards is a function of the two input blocks alone (the later piece laid over the
  earlier; they do not overlap).  (3) With that as the per-point description, the pipeline's launch
  theorem gives the whole run: every weakly fair execution terminates without a fault, each argument array
  ends as launched, and the result array ends at the blocks the points wrote back.
-/
import proofs.«100594_j83674552861142_2_alg».proof.Proof.Gen.KernelIdeal.Launch
import proofs.«100594_j83674552861142_2_alg».proof.Proof.Gen.KernelIdeal.Skeleton
import proofs.«100594_j83674552861142_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host line. -/
abbrev V (c : Dev nD) (b : Ref sig .tc) : Buf (Elt F) ((c : Thread nD τ).loc b) :=
  StableHlo.after (List.flatten [hostOps0]) (fun b => m (c, b)) b

/-- The host line allocates nothing. -/
theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host line writes the fused-weight buffer only: the region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds the point's block at every point (it is fetched at each). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The fused weight's staging buffer holds the whole weight at every point: fetched at the first, and its block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the run's post -/

/-- From a run whose final state has the pipeline's arrays at the proof data's and every other unscoped buffer as the
    region found it: the staged input is an input window's array (never written back), the four weights are buffers no
    window stages, and the region found all five as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole input block, the whole fused weight, and the two halves (lanes 0–31, lanes 32–63) of the output block. -/
abbrev rIn : Rect S128x32x64 := Rect.unit (s := S128x32x64) ![0, 0, 0] S128x32x64.size inb_S128x32x64_S128x32x64_0_0_0
abbrev rWt : Rect S64x256 := Rect.unit (s := S64x256) ![0, 0] S64x256.size inb_S64x256_S64x256_0_0
abbrev rLo : Rect S128x32x64 := Rect.unit (s := S128x32x64) ![0, 0, 0] S128x32x32.size inb_S128x32x64_S128x32x32_0_0_0
abbrev rHi : Rect S128x32x64 := Rect.unit (s := S128x32x64) ![0, 0, 32] S128x32x32.size inb_S128x32x64_S128x32x32_0_0_32

/-! ## What the body leaves in the output window's buffer -/

/-- The output block after the body, from the two input blocks: head 1's piece (the later store) over lanes 32–63,
    head 0's piece over lanes 0–31. -/
def outBlk (x0 : Vec F S128x32x64 .f32) (x1 : Vec F S64x256 .f32) : Vec F S128x32x64 .f32 :=
  View.canon [⟨rHi, k0_pay1 (k0_pay4 (View.ld x0 rIn) (View.ld x1 rWt)) (k0_pay5 (View.ld x0 rIn) (View.ld x1 rWt)) (k0_pay6 (View.ld x0 rIn) (View.ld x1 rWt))⟩,
    ⟨rLo, k0_pay3 (View.ld x0 rIn) (View.ld x1 rWt)⟩]

/-- The two pieces tile the block, so they cover it. -/
theorem cover_out (p0 : Vec F S128x32x32 .f32) (p1 : Vec F S128x32x32 .f32) (y : S128x32x64.Idx) :
    ∃ pc ∈ ([⟨rHi, p0⟩, ⟨rLo, p1⟩] : List (View.Piece (Elt F) S128x32x64 .f32)), y ∈ pc.1.set :=
  View.cover_of_tiled [⟨rHi, p0⟩, ⟨rLo, p1⟩] S128x32x32.size (by rfl) y

/-! ## The body's triple -/

set_option maxHeartbeats 1000000 in
/-- The body on whole staging buffers — the inputs' at read contents `x0`, `x1`, the output's at anything — runs to
    the continuation holding the inputs' as they were and the output's at `outBlk x0 x1`. -/
theorem sound_kernel (c : Dev nD) (E : Set ℕ) (i : grid0.Coords) (arg1 : Memref sig .tc .vmem S128x32x64 .f32) (harg1 : arg1.IsWhole) (arg2 : Memref sig .tc .vmem S64x256 .f32) (harg2 : arg2.IsWhole) (arg3 : Memref sig .tc .vmem S128x32x64 .f32) (harg3 : arg3.IsWhole)
    (x0 : Vec F S128x32x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover_out _ _)

/-! ## The pipeline's proof data -/

/-- The arrays as the region finds them; after the body at point `t` each input's buffer at its block and the
    output's at `outBlk` of the two; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KernelDots.lean ====
/-
  The kernel's three matrix-unit products, each into a zero accumulator, read at one entry at the extended
  reals as a plain finite sum:
    the fused projection   [4096,64]·[64,256]     at (p, n):    ∑ k, l(p,k) · r(k,n);
    the scores             [128,32,32]·[128,32,32] at (b, q, k): ∑ a, l(b,q,a) · r(b,k,a)   (both last axes contracted);
    the attended values    [128,32,32]·[128,32,32] at (b, q, a): ∑ k, l(b,q,k) · r(b,k,a).
  In each case the dimension numbers send the output entry and the contraction coordinate to one entry of each
  operand; the sum over the one-axis contraction index is re-indexed by its coordinate.
-/
import proofs.«100594_j83674552861142_2_alg».proof.Proof.Gen.KernelIdeal
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The fused projection -/

theorem projL0 (i : S4096x256.Idx) (q : dot_S4096x64_S64x256_S4096x256_1_0_0_1_n_n.contr.Idx) : (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem projL1 (i : S4096x256.Idx) (q : dot_S4096x64_S64x256_S4096x256_1_0_0_1_n_n.contr.Idx) : (dot_S4096x64_S64x256_S4096x256_1_0_0_1_n_n.lhsIdx i q 1).val = (q ⟨0, by decide⟩).val :=
  dot_S4096x64_S64x256_S4096x256_1_0_0_1_n_n.lhsIdx_val_of_single rfl i q
theorem projR0 (i : S4096x256.Idx) (q : dot_S4096x64_S64x256_S4096x256_1_0_0_1_n_n.contr.Idx) : (dot_S4096x64_S64x256_S4096x256_1_0_0_1_n_n.rhsIdx i q 0).val = (q ⟨0, by decide⟩).val :=
  dot_S4096x64_S64x256_S4096x256_1_0_0_1_n_n.rhsIdx_val_of_single rfl i q
theorem projR1 (i : S4096x256.Idx) (q : dot_S4096x64_S64x256_S4096x256_1_0_0_1_n_n.contr.Idx) : (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The fused projection at row `p`, column `n`. -/
theorem proj_matmul {φ₁ φ₂ : FTy} (l : FVec Ideal S4096x64 φ₁) (r : FVec Ideal S64x256 φ₂) (p : Fin 4096) (n : Fin 256) :
    matmul dot_S4096x64_S64x256_S4096x256_1_0_0_1_n_n none l r (constant S4096x256 .f32 0x00000000#32) (ix2 p n)
      = ∑ k : Fin 64, l (ix2 p k) * r (ix2 k n) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p n) ((contrEquiv1 dot_S4096x64_S64x256_S4096x256_1_0_0_1_n_n 64 rfl rfl).symm k) = ix2 p k := funext fun a => Fin.ext (by
    match a with
    | ⟨0, _⟩ => exact projL0 _ _
    | ⟨1, _⟩ => exact (projL1 _ _).trans hk)
  have er : dot_S4096x64_S64x256_S4096x256_1_0_0_1_n_n.rhsIdx (ix2 p n) ((contrEquiv1 dot_S4096x64_S64x256_S4096x256_1_0_0_1_n_n 64 rfl rfl).symm k) = ix2 k n := funext fun a => Fin.ext (by
    match a with
    | ⟨0, _⟩ => exact (projR0 _ _).trans hk
    | ⟨1, _⟩ => exact projR1 _ _)
  rw [el, er]

/-! ## The scores: both operands' last axes contracted -/

theorem qkL0 (i : S128x32x32.Idx) (q : dot_S128x32x32_S128x32x32_S128x32x32_2_2_1_1_0_0.contr.Idx) : (dot_S128x32x32_S128x32x32_S128x32x32_2_2_1_1_0_0.lhsIdx i q 0).val = (i 0).val := by
  unfold DotDims.lhsIdx
  rw [dif_pos (show (0 : Fin S128x32x32.rank) ∈ dot_S128x32x32_S128x32x32_S128x32x32_2_2_1_1_0_0.lhsBatch by decide)]
  rfl
theorem qkL1 (i : S128x32x32.Idx) (q : dot_S128x32x32_S128x32x32_S128x32x32_2_2_1_1_0_0.contr.Idx) : (dot_S128x32x32_S128x32x32_S128x32x32_2_2_1_1_0_0.lhsIdx i q 1).val = (i 1).val := by
  unfold DotDims.lhsIdx
  rw [dif_neg (show ¬(1 : Fin S128x32x32.rank) ∈ dot_S128x32x32_S128x32x32_S128x32x32_2_2_1_1_0_0.lhsBatch by decide), dif_pos (show (1 : Fin S128x32x32.rank) ∈ dot_S128x32x32_S128x32x32_S128x32x32_2_2_1_1_0_0.lhsNonContracting by decide)]
  rfl
theorem qkL2 (i : S128x32x32.Idx) (q : dot_S128x32x32_S128x32x32_S128x32x32_2_2_1_1_0_0.contr.Idx) : (dot_S128x32x32_S128x32x32_S128x32x32_2_2_1_1_0_0.lhsIdx i q 2).val = (q ⟨0, by decide⟩).val :=
  dot_S128x32x32_S128x32x32_S128x32x32_2_2_1_1_0_0.lhsIdx_val_of_single rfl i q
theorem qkR0 (i : S128x32x32.Idx) (q : dot_S128x32x32_S128x32x32_S128x32x32_2_2_1_1_0_0.contr.Idx) : (dot_S128x32x32_S128x32x32_S128x32x32_2_2_1_1_0_0.rhsIdx i q 0).val = (i 0).val := by
  unfold DotDims.rhsIdx
  rw [dif_pos (show (0 : Fin S128x32x32.rank) ∈ dot_S128x32x32_S128x32x32_S128x32x32_2_2_1_1_0_0.rhsBatch by decide)]
  rfl
theorem qkR1 (i : S128x32x32.Idx) (q : dot_S128x32x32_S128x32x32_S128x32x32_2_2_1_1_0_0.contr.Idx) : (dot_S128x32x32_S128x32x32_S128x32x32_2_2_1_1_0_0.rhsIdx i q 1).val = (i 2).val := by
  unfold DotDims.rhsIdx
  rw [dif_neg (show ¬(1 : Fin S128x32x32.rank) ∈ dot_S128x32x32_S128x32x32_S128x32x32_2_2_1_1_0_0.rhsBatch by decide), dif_pos (show (1 : Fin S128x32x32.rank) ∈ dot_S128x32x32_S128x32x32_S128x32x32_2_2_1_1_0_0.rhsNonContracting by decide)]
  rfl
theorem qkR2 (i : S128x32x32.Idx) (q : dot_S128x32x32_S128x32x32_S128x32x32_2_2_1_1_0_0.contr.Idx) : (dot_S128x32x32_S128x32x32_S128x32x32_2_2_1_1_0_0.rhsIdx i q 2).val = (q ⟨0, by decide⟩).val :=
  dot_S128x32x32_S128x32x32_S128x32x32_2_2_1_1_0_0.rhsIdx_val_of_single rfl i q

/-- The score of query position `q` against key position `k` in batch row `b`. -/
theorem qk_matmul {φ₁ φ₂ : FTy} (l : FVec Ideal S128x32x32 φ₁) (r : FVec Ideal S128x32x32 φ₂) (b : Fin 128) (q k : Fin 32) :
    matmul dot_S128x32x32_S128x32x32_S128x32x32_2_2_1_1_0_0 none l r (constant S128x32x32 .f32 0x00000000#32) (ix3 b q k)
      = ∑ a : Fin 32, l (ix3 b q a) * r (ix3 b k a) := by
  simp only [matmul]
  rw [Ideal.matmul_constant_zero_apply, ← Equiv.sum_comp (contrEquiv1 dot_S128x32x32_S128x32x32_S128x32x32_2_2_1_1_0_0 32 rfl rfl).symm]
  refine Finset.sum_congr rfl fun a _ => ?_
  have hk := contrEquiv1_symm_val dot_S128x32x32_S128x32x32_S128x32x32_2_2_1_1_0_0 32 rfl rfl a
  have el : dot_S128x32x32_S128x32x32_S128x32x32_2_2_1_1_0_0.lhsIdx (ix3 b q k) ((contrEquiv1 dot_S128x32x32_S128x32x32_S128x32x32_2_2_1_1_0_0 32 rfl rfl).symm a) = ix3 b q a := funext fun d => Fin.ext (by
    match d with
    | ⟨0, _⟩ => exact qkL0 _ _
    | ⟨1, _⟩ => exact qkL1 _ _
    | ⟨2, _⟩ => exact (qkL2 _ _).trans hk)
  have er : dot_S128x32x32_S128x32x32_S128x32x32_2_2_1_1_0_0.rhsIdx (ix3 b q k) ((contrEquiv1 dot_S128x32x32_S128x32x32_S128x32x32_2_2_1_1_0_0 32 rfl rfl).symm a) = ix3 b k a := funext fun d => Fin.ext (by
    match d with
    | ⟨0, _⟩ => exact qkR0 _ _
    | ⟨1, _⟩ => exact qkR1 _ _
    | ⟨2, _⟩ => exact (qkR2 _ _).trans hk)
  rw [el, er]

/-! ## The attended values -/

theorem pvL0 (i : S128x32x32.Idx) (q : dot_S128x32x32_S128x32x32_S128x32x32_2_1_1_2_0_0.contr.Idx) : (dot_S128x32x32_S128x32x32_S128x32x32_2_1_1_2_0_0.lhsIdx i q 0).val = (i 0).val := by
  unfold DotDims.lhsIdx
  rw [dif_pos (show (0 : Fin S128x32x32.rank) ∈ dot_S128x32x32_S128x32x32_S128x32x32_2_1_1_2_0_0.lhsBatch by decide)]
  rfl
theorem pvL1 (i : S128x32x32.Idx) (q : dot_S128x32x32_S128x32x32_S128x32x32_2_1_1_2_0_0.contr.Idx) : (dot_S128x32x32_S128x32x32_S128x32x32_2_1_1_2_0_0.lhsIdx i q 1).val = (i 1).val := by
  unfold DotDims.lhsIdx
  rw [dif_neg (show ¬(1 : Fin S128x32x32.rank) ∈ dot_S128x32x32_S128x32x32_S128x32x32_2_1_1_2_0_0.lhsBatch by decide), dif_pos (show (1 : Fin S128x32x32.rank) ∈ dot_S128x32x32_S128x32x32_S128x32x32_2_1_1_2_0_0.lhsNonContracting by decide)]
  rfl
theorem pvL2 (i : S128x32x32.Idx) (q : dot_S128x32x32_S128x32x32_S128x32x32_2_1_1_2_0_0.contr.Idx) : (dot_S128x32x32_S128x32x32_S128x32x32_2_1_1_2_0_0.lhsIdx i q 2).val = (q ⟨0, by decide⟩).val :=
  dot_S128x32x32_S128x32x32_S128x32x32_2_1_1_2_0_0.lhsIdx_val_of_single rfl i q
theorem pvR0 (i : S128x32x32.Idx) (q : dot_S128x32x32_S128x32x32_S128x32x32_2_1_1_2_0_0.contr.Idx) : (dot_S128x32x32_S128x32x32_S128x32x32_2_1_1_2_0_0.rhsIdx i q 0).val = (i 0).val := by
  unfold DotDims.rhsIdx
  rw [dif_pos (show (0 : Fin S128x32x32.rank) ∈ dot_S128x32x32_S128x32x32_S128x32x32_2_1_1_2_0_0.rhsBatch by decide)]
  rfl
theorem pvR1 (i : S128x32x32.Idx) (q : dot_S128x32x32_S128x32x32_S128x32x32_2_1_1_2_0_0.contr.Idx) : (dot_S128x32x32_S128x32x32_S128x32x32_2_1_1_2_0_0.rhsIdx i q 1).val = (q ⟨0, by decide⟩).val :=
  dot_S128x32x32_S128x32x32_S128x32x32_2_1_1_2_0_0.rhsIdx_val_of_single rfl i q
theorem pvR2 (i : S128x32x32.Idx) (q : dot_S128x32x32_S128x32x32_S128x32x32_2_1_1_2_0_0.contr.Idx) : (dot_S128x32x32_S128x32x32_S128x32x32_2_1_1_2_0_0.rhsIdx i q 2).val = (i 2).val := by
  unfold DotDims.rhsIdx
  rw [dif_neg (show ¬(2 : Fin S128x32x32.rank) ∈ dot_S128x32x32_S128x32x32_S128x32x32_2_1_1_2_0_0.rhsBatch by decide), dif_pos (show (2 : Fin S128x32x32.rank) ∈ dot_S128x32x32_S128x32x32_S128x32x32_2_1_1_2_0_0.rhsNonContracting by decide)]
  rfl

/-- The attended value at query position `q`, lane `a`, in batch row `b`. -/
theorem pv_matmul {φ₁ φ₂ : FTy} (l : FVec Ideal S128x32x32 φ₁) (r : FVec Ideal S128x32x32 φ₂) (b : Fin 128) (q a : Fin 32) :
    matmul dot_S128x32x32_S128x32x32_S128x32x32_2_1_1_2_0_0 none l r (constant S128x32x32 .f32 0x00000000#32) (ix3 b q a)
      = ∑ k : Fin 32, l (ix3 b q k) * r (ix3 b k a) := by
  simp only [matmul]
  rw [Ideal.matmul_constant_zero_apply, ← Equiv.sum_comp (contrEquiv1 dot_S128x32x32_S128x32x32_S128x32x32_2_1_1_2_0_0 32 rfl rfl).symm]
  refine Finset.sum_congr rfl fun k _ => ?_
  have hk := contrEquiv1_symm_val dot_S128x32x32_S128x32x32_S128x32x32_2_1_1_2_0_0 32 rfl rfl k
  have el : dot_S128x32x32_S128x32x32_S128x32x32_2_1_1_2_0_0.lhsIdx (ix3 b q a) ((contrEquiv1 dot_S128x32x32_S128x32x32_S128x32x32_2_1_1_2_0_0 32 rfl rfl).symm k) = ix3 b q k := funext fun d => Fin.ext (by
    match d with
    | ⟨0, _⟩ => exact pvL0 _ _
    | ⟨1, _⟩ => exact pvL1 _ _
    | ⟨2, _⟩ => exact (pvL2 _ _).trans hk)
  have er : dot_S128x32x32_S128x32x32_S128x32x32_2_1_1_2_0_0.rhsIdx (ix3 b q a) ((contrEquiv1 dot_S128x32x32_S128x32x32_S128x32x32_2_1_1_2_0_0 32 rfl rfl).symm k) = ix3 b k a := funext fun d => Fin.ext (by
    match d with
    | ⟨0, _⟩ => exact pvR0 _ _
    | ⟨1, _⟩ => exact (pvR1 _ _).trans hk
    | ⟨2, _⟩ => exact pvR2 _ _)
  rw [el, er]

end Cert.KernelIdeal.Hand

end
-- ==== Proof.AttnSpec.lean ====
/-
  The mathematics both programs compute, as one function of the five argument arrays, entry by entry.

  For a batch row `b`, a position `f` and an output lane `e` of 64, a projection of the input by a 64×64
  weight is the plain sum `∑ d, x[b,f,d] · w[d,e]`.  The 64 lanes are two heads of 32: lane `32·h + a` is
  lane `a` of head `h`.  Everything after the projections happens inside ONE batch row, so it is stated
  over that row's four projections `pq pk pv pr : position → lane → value` (query, key, value, residual):
  within a head, the score of a query position `q` against a key position `k` is the sum over the head's
  32 lanes of query-projection times key-projection; the scores of one query are turned into weights by
  the usual softmax spelling — subtract the row's maximum (a fold of `max` from −∞, once more capped below
  by −∞), exponentiate, divide by the sum of the exponentials —; the head's output at `(q, a)` is the
  weighted sum over `k` of the value-projection at `(k, a)`; the residual projection is added and the
  result clipped below at zero.  Nothing here needs the entries to be finite: every step is the same
  operation of the extended reals on both sides, so no law of arithmetic beyond reading indices is used.
-/
import Idealize.ShloMosaic.PureOps.Ideal
import Idealize.ShloMosaic.Lib.ValueIdx

noncomputable section

open scoped BigOperators

namespace Cert.Attn

open Idealize.ShloMosaic Idealize.ShloMosaic.ValueIdx

/-- The input's shape [16384, 32, 64] and a weight's [64, 64]. -/
abbrev SX : Shape := ⟨3, ![16384, 32, 64]⟩
abbrev SW : Shape := ⟨2, ![64, 64]⟩

/-- Lane `a` of head `h` among the 64 lanes: `32·h + a`. -/
def lane (h : Fin 2) (a : Fin 32) : Fin 64 := ⟨32 * h.val + a.val, by omega⟩

/-- The head of a lane, and the lane within its head. -/
def headOf (e : Fin 64) : Fin 2 := ⟨e.val / 32, by omega⟩
def laneOf (e : Fin 64) : Fin 32 := ⟨e.val % 32, by omega⟩

theorem lane_headOf_laneOf (e : Fin 64) : lane (headOf e) (laneOf e) = e := by
  apply Fin.ext; simp only [lane, headOf, laneOf]; omega

theorem lane_val (h : Fin 2) (a : Fin 32) : (lane h a).val = 32 * h.val + a.val := rfl

/-- The pattern of −∞ and of zero, as both programs spell them. -/
abbrev negInf : EReal := Ideal.ofBits .f32 0xFF800000#32
abbrev zeroF : EReal := Ideal.ofBits .f32 0x00000000#32

/-! ## One batch row, over its four projections -/

/-- A batch row's projection: position, lane ↦ value. -/
abbrev RowProj := Fin 32 → Fin 64 → EReal

/-- The score of query position `q` against key position `k` in head `h`. -/
def rowScore (pq pk : RowProj) (h : Fin 2) (q k : Fin 32) : EReal :=
  ∑ a : Fin 32, pq q (lane h a) * pk k (lane h a)

/-- The maximum of a query's scores, as softmax takes it. -/
def rowMax (pq pk : RowProj) (h : Fin 2) (q : Fin 32) : EReal :=
  max negInf ((Finset.univ : Finset (Fin 32)).fold max negInf (fun k => rowScore pq pk h q k))

/-- The exponential of a score less its query's maximum. -/
def rowExpo (pq pk : RowProj) (h : Fin 2) (q k : Fin 32) : EReal :=
  Ideal.exp (rowScore pq pk h q k - rowMax pq pk h q)

/-- The sum of a query's exponentials. -/
def rowDenom (pq pk : RowProj) (h : Fin 2) (q : Fin 32) : EReal :=
  ∑ k : Fin 32, rowExpo pq pk h q k

/-- The softmax weight of key position `k` for query position `q`. -/
def rowWeight (pq pk : RowProj) (h : Fin 2) (q k : Fin 32) : EReal :=
  Ideal.div (rowExpo pq pk h q k) (rowDenom pq pk h q)

/-- The head's output at `(q, a)`: the weighted sum of the value projections. -/
def rowAttend (pq pk pv : RowProj) (h : Fin 2) (q a : Fin 32) : EReal :=
  ∑ k : Fin 32, rowWeight pq pk h q k * pv k (lane h a)

/-- One entry of the result: head output plus residual projection, clipped below at zero. -/
def rowEntry (pq pk pv pr : RowProj) (q : Fin 32) (h : Fin 2) (a : Fin 32) : EReal :=
  max (rowAttend pq pk pv h q a + pr q (lane h a)) zeroF

/-! ## The whole arrays -/

/-- Batch row `b`'s projection `x · w`. -/
def proj (x : SX.Idx → EReal) (w : SW.Idx → EReal) (b : Fin 16384) : RowProj :=
  fun f e => ∑ d : Fin 64, x (ix3 b f d) * w (ix2 d e)

/-- One entry of the result array. -/
def entry (x : SX.Idx → EReal) (wq wk wv wr : SW.Idx → EReal) (b : Fin 16384) (q : Fin 32) (h : Fin 2) (a : Fin 32) : EReal :=
  rowEntry (proj x wq b) (proj x wk b) (proj x wv b) (proj x wr b) q h a

/-- The whole result array [16384, 32, 64]. -/
def result (x : SX.Idx → EReal) (wq wk wv wr : SW.Idx → EReal) : SX.Idx → EReal :=
  fun i => entry x wq wk wv wr (i 0) (i 1) (headOf (i 2)) (laneOf (i 2))

end Cert.Attn

end
-- ==== Proof.KernelEntry.lean ====
/-
  One entry of each piece the body stores, at the extended reals, as the specification's row formula.

  The body's first value is the fused projection: the input block [128,32,64] recast as 4096 rows, times
  the fused weight [64,256], recast back as [128,32,256]; entry (b, f, n) is `∑ d, X(b,f,d) · W(d,n)`.
  The 256 columns are four groups of 64 — query, key, value, residual — and each head reads a 32-lane
  slice of each group: for a group starting at column `off` and head `h`, the slice at offset
  `off + 32·h` read at (b, q, a) is the group's projection at lane `32·h + a`.
  Given the head's scores, its value slice and its residual slice, the rest of the body — row maximum,
  exponentials, row sum, quotient, weighted sum of values, residual added, clipped at zero — is, entry by
  entry, the specification's `rowEntry` over batch row `b`'s four projections.  Head 0's piece is the same
  term as head 1's with its own three slices, so one lemma serves both.
-/
import proofs.«100594_j83674552861142_2_alg».proof.Proof.Gen.KernelIdeal.Skeleton
import proofs.«100594_j83674552861142_2_alg».proof.Proof.KernelDots
import proofs.«100594_j83674552861142_2_alg».proof.Proof.AttnSpec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Cert.Attn
open Idealize.ShloMosaic Idealize.ShloMosaic.ValueIdx

/-! ## Small readings at an index -/

/-- The exponential, entry by entry. -/
theorem exp_at {s : Shape} {φ : FTy} (x : FVec Ideal s φ) (i : s.Idx) : exp x i = Ideal.exp (x i) := rfl

/-- A row's maximum over the last axis of a [128,32,32] array: the fold of `max` from −∞ over the 32 lanes. -/
theorem laneMax_at (src : FVec Ideal S128x32x32 .f32) (h : S128x32x32.Reduces [2] S128x32) (hφ : FKind.Formats .f32)
    (hacc : (0xFF800000#32 : BitVec 32) = 0xFF800000#32) (b : Fin 128) (q : Fin 32) :
    multiReduction .maximumf [2] S128x32 src 0xFF800000#32 h hφ hacc (ix2 b q)
      = (Finset.univ : Finset (Fin 32)).fold max negInf (fun k => src (ix3 b q k)) :=
  (Ideal.multiReduction_maximumf_single src 0xFF800000#32 h hφ hacc (ix2 b q)).trans
    (congrArg (fun f : Fin 32 → EReal => (Finset.univ : Finset (Fin 32)).fold max negInf f)
      (funext fun k => congrArg src (funext fun a => Fin.ext (by
        match a with
        | ⟨0, _⟩ => rfl
        | ⟨1, _⟩ => rfl
        | ⟨2, _⟩ => rfl))))

/-- A row's sum over the last axis of a [128,32,32] array. -/
theorem laneSum_at (src : FVec Ideal S128x32x32 .f32) (h : S128x32x32.Reduces [2] S128x32) (hφ : FKind.Formats .f32)
    (hacc : (0x00000000#32 : BitVec 32) = 0x00000000#32) (b : Fin 128) (q : Fin 32) :
    multiReduction .add [2] S128x32 src 0x00000000#32 h hφ hacc (ix2 b q) = ∑ k : Fin 32, src (ix3 b q k) :=
  (Ideal.multiReduction_add_single src 0x00000000#32 h hφ hacc (ix2 b q)).trans
    (Finset.sum_congr rfl fun k _ => congrArg src (funext fun a => Fin.ext (by
      match a with
      | ⟨0, _⟩ => rfl
      | ⟨1, _⟩ => rfl
      | ⟨2, _⟩ => rfl)))

/-- A per-row value [128,32] recast as a column [128,32,1] and spread over the 32 lanes: every lane of row (b, q)
    reads the row's value. -/
theorem keepdims_at (v : FVec Ideal S128x32 .f32) (h1 : S128x32.ShapeCasts S128x32x1) (h2 : S128x32x1.Broadcasts S128x32x32)
    (b : Fin 128) (q k : Fin 32) :
    broadcastTo S128x32x32 (shapeCast S128x32x1 v h1) h2 (ix3 b q k) = v (ix2 b q) := by
  refine (broadcastTo_apply _ h2 (ix3 b q k) (ix3 b q (0 : Fin 1)) (fun a => ?_)).trans
    (shapeCast_apply v h1 (ix3 b q (0 : Fin 1)) (ix2 b q) ?_)
  · match a with
    | ⟨0, _⟩ => rfl
    | ⟨1, _⟩ => rfl
    | ⟨2, _⟩ => rfl
  · rw [Shape.rowMajor_val_two, Shape.rowMajor_val_three]
    show b.val * 32 + q.val = (b.val * 32 + q.val) * 1 + 0
    omega

/-! ## The fused projection -/

/-- The fused projection's entry (b, f, n). -/
theorem pay2_at (X : Vec Ideal S128x32x64 .f32) (Wt : Vec Ideal S64x256 .f32) (b : Fin 128) (f : Fin 32) (n : Fin 256) :
    k0_pay2 X Wt (ix3 b f n) = ∑ d : Fin 64, X (ix3 b f d) * Wt (ix2 d n) := by
  unfold k0_pay2
  refine (shapeCast_apply _ _ (ix3 b f n) (ix2 (⟨b.val * 32 + f.val, by omega⟩ : Fin 4096) n) ?_).trans ?_
  · rw [Shape.rowMajor_val_two, Shape.rowMajor_val_three]
    show (b.val * 32 + f.val) * 256 + n.val = (b.val * 32 + f.val) * 256 + n.val
    rfl
  refine (proj_matmul _ _ _ n).trans (Finset.sum_congr rfl fun d _ => ?_)
  refine congrArg₂ (· * ·) ?_ ?_
  · refine (shapeCast_apply _ _ _ (ix3 b f d) ?_).trans rfl
    rw [Shape.rowMajor_val_two, Shape.rowMajor_val_three]
    show (b.val * 32 + f.val) * 64 + d.val = (b.val * 32 + f.val) * 64 + d.val
    rfl
  · show shapeCast S64x256 Wt _ (ix2 d n) = Wt (ix2 d n)
    rw [shapeCast_self]

/-- Batch row `b`'s projection by the 64 columns of the fused weight starting at column `off`. -/
def blkProj (X : Vec Ideal S128x32x64 .f32) (Wt : Vec Ideal S64x256 .f32) (off : Nat) (hoff : off + 64 ≤ 256) (b : Fin 128) : RowProj :=
  fun f e => ∑ d : Fin 64, X (ix3 b f d) * Wt (ix2 d (⟨off + e.val, by omega⟩ : Fin 256))

/-- Head `h`'s 32-lane slice of the group starting at column `off`, read at (b, q, a): the group's projection at
    lane `32·h + a`. -/
theorem slice_at (X : Vec Ideal S128x32x64 .f32) (Wt : Vec Ideal S64x256 .f32) (o : Nat)
    (hs : S128x32x256.Slices ![0, 0, o] S128x32x32) (off : Nat) (hoff : off + 64 ≤ 256) (h : Fin 2) (ho : o = off + 32 * h.val)
    (b : Fin 128) (q a : Fin 32) :
    extractStridedSlice S128x32x32 ![0, 0, o] (k0_pay2 X Wt) hs (ix3 b q a) = blkProj X Wt off hoff b q (lane h a) := by
  subst ho
  refine (extractStridedSlice_apply _ _ hs (ix3 b q a) (ix3 b q (⟨off + 32 * h.val + a.val, by omega⟩ : Fin 256)) (fun c => ?_)).trans ?_
  · match c with
    | ⟨0, _⟩ => exact (Nat.zero_add _).symm
    | ⟨1, _⟩ => exact (Nat.zero_add _).symm
    | ⟨2, _⟩ => rfl
  rw [pay2_at]
  unfold blkProj
  refine Finset.sum_congr rfl fun d _ => congrArg (X (ix3 b q d) * ·) (congrArg Wt (congrArg (ix2 d) (Fin.ext ?_)))
  show off + 32 * h.val + a.val = off + (32 * h.val + a.val)
  omega

/-! ## One head, from its scores, its value slice and its residual slice -/

/-- The row maxima of a [128,32,32] array over its last axis (the fold from −∞). -/
def laneMaxVec (sc : FVec Ideal S128x32x32 .f32) : FVec Ideal S128x32 .f32 :=
  multiReduction .maximumf [2] S128x32 sc 0xFF800000#32 reduces_S128x32x32_S128x32 (.inl rfl) rfl

theorem laneMaxVec_at (sc : FVec Ideal S128x32x32 .f32) (b : Fin 128) (q : Fin 32) :
    laneMaxVec sc (ix2 b q) = (Finset.univ : Finset (Fin 32)).fold max negInf (fun k => sc (ix3 b q k)) :=
  laneMax_at sc reduces_S128x32x32_S128x32 (.inl rfl) rfl b q

/-- The row sums of a [128,32,32] array over its last axis. -/
def laneSumVec (ex : FVec Ideal S128x32x32 .f32) : FVec Ideal S128x32 .f32 :=
  multiReduction .add [2] S128x32 ex 0x00000000#32 reduces_S128x32x32_S128x32 (.inl rfl) rfl

theorem laneSumVec_at (ex : FVec Ideal S128x32x32 .f32) (b : Fin 128) (q : Fin 32) :
    laneSumVec ex (ix2 b q) = ∑ k : Fin 32, ex (ix3 b q k) :=
  laneSum_at ex reduces_S128x32x32_S128x32 (.inl rfl) rfl b q

/-- A per-row value spread over the 32 lanes of its row. -/
def spread (v : FVec Ideal S128x32 .f32) : FVec Ideal S128x32x32 .f32 :=
  broadcastTo S128x32x32 (shapeCast S128x32x1 v shapeCasts_S128x32_S128x32x1) broadcasts_S128x32x1_S128x32x32

theorem spread_at (v : FVec Ideal S128x32 .f32) (b : Fin 128) (q k : Fin 32) : spread v (ix3 b q k) = v (ix2 b q) :=
  keepdims_at v _ _ b q k

/-- The exponentials of the scores less their row maxima (capped below by −∞). -/
def expVec (sc : FVec Ideal S128x32x32 .f32) : FVec Ideal S128x32x32 .f32 :=
  exp (subf sc (spread (maximumf (broadcast S128x32 (FloatOps.ofBits .f32 0xFF800000#32)) (laneMaxVec sc))))

/-- The softmax weights. -/
def weightVec (sc : FVec Ideal S128x32x32 .f32) : FVec Ideal S128x32x32 .f32 :=
  divf (expVec sc) (spread (laneSumVec (expVec sc)))

/-- The head's piece: weights times values, plus the residual, clipped below at zero. -/
def headVec (vv : FVec Ideal S128x32x32 .bf16) (rr sc : FVec Ideal S128x32x32 .f32) : FVec Ideal S128x32x32 .f32 :=
  maximumf (addf (matmul dot_S128x32x32_S128x32x32_S128x32x32_2_1_1_2_0_0 none (truncf .bf16 (weightVec sc) bitsLt_bf16_f32) vv
    (constant S128x32x32 .f32 0x00000000#32)) rr) (broadcast S128x32x32 (FloatOps.ofBits .f32 0x00000000#32))

/-- The body's term after a head's scores is this composition. -/
theorem pay1_eq (vv : FVec Ideal S128x32x32 .bf16) (rr sc : FVec Ideal S128x32x32 .f32) :
    k0_pay1 vv rr sc = headVec vv rr sc := rfl

/-- Entry (b, q, a) of `max(softmax(scores)·values + residual, 0)` is the specification's row formula, for any four
    projections the three inputs are read off. -/
theorem head_at (vv : FVec Ideal S128x32x32 .bf16) (rr sc : FVec Ideal S128x32x32 .f32)
    (pq pk pv pr : Fin 128 → RowProj) (h : Fin 2)
    (hsc : ∀ b q k, sc (ix3 b q k) = rowScore (pq b) (pk b) h q k)
    (hvv : ∀ b k a, vv (ix3 b k a) = pv b k (lane h a))
    (hrr : ∀ b q a, rr (ix3 b q a) = pr b q (lane h a)) (b : Fin 128) (q a : Fin 32) :
    k0_pay1 vv rr sc (ix3 b q a) = rowEntry (pq b) (pk b) (pv b) (pr b) q h a := by
  rw [pay1_eq]
  unfold headVec weightVec expVec rowEntry rowAttend rowWeight rowDenom rowExpo rowMax
  simp only [maximumf_apply, addf_apply, subf_apply, divf_apply, truncf_apply, broadcast_apply, pv_matmul,
    spread_at, laneMaxVec_at, laneSumVec_at, exp_at, Ideal.ofBits_def, hsc, hvv, hrr]

/-! ## The two heads' inputs -/

/-- A head's scores: the product of its query slice and its key slice, both last axes contracted. -/
theorem scores_at (X : Vec Ideal S128x32x64 .f32) (Wt : Vec Ideal S64x256 .f32) (oq ok : Nat)
    (hq : S128x32x256.Slices ![0, 0, oq] S128x32x32) (hk : S128x32x256.Slices ![0, 0, ok] S128x32x32)
    (h : Fin 2) (hoq : oq = 0 + 32 * h.val) (hok : ok = 64 + 32 * h.val) (b : Fin 128) (q k : Fin 32) :
    matmul dot_S128x32x32_S128x32x32_S128x32x32_2_2_1_1_0_0 none
        (truncf .bf16 (extractStridedSlice S128x32x32 ![0, 0, oq] (k0_pay2 X Wt) hq) bitsLt_bf16_f32)
        (truncf .bf16 (extractStridedSlice S128x32x32 ![0, 0, ok] (k0_pay2 X Wt) hk) bitsLt_bf16_f32)
        (constant S128x32x32 .f32 0x00000000#32) (ix3 b q k)
      = rowScore (blkProj X Wt 0 (by omega) b) (blkProj X Wt 64 (by omega) b) h q k := by
  rw [qk_matmul]
  unfold rowScore
  refine Finset.sum_congr rfl fun a _ => ?_
  rw [truncf_apply, truncf_apply, slice_at X Wt oq hq 0 (by omega) h hoq, slice_at X Wt ok hk 64 (by omega) h hok]

/-- Head 0's value slice, residual slice and scores. -/
def val0 (X : Vec Ideal S128x32x64 .f32) (Wt : Vec Ideal S64x256 .f32) : FVec Ideal S128x32x32 .bf16 :=
  truncf .bf16 (extractStridedSlice S128x32x32 ![0, 0, 128] (k0_pay2 X Wt) slices_S128x32x256_o0_0_128_S128x32x32) bitsLt_bf16_f32
def res0 (X : Vec Ideal S128x32x64 .f32) (Wt : Vec Ideal S64x256 .f32) : FVec Ideal S128x32x32 .f32 :=
  extractStridedSlice S128x32x32 ![0, 0, 192] (k0_pay2 X Wt) slices_S128x32x256_o0_0_192_S128x32x32
def sco0 (X : Vec Ideal S128x32x64 .f32) (Wt : Vec Ideal S64x256 .f32) : FVec Ideal S128x32x32 .f32 :=
  matmul dot_S128x32x32_S128x32x32_S128x32x32_2_2_1_1_0_0 none
    (truncf .bf16 (extractStridedSlice S128x32x32 ![0, 0, 0] (k0_pay2 X Wt) slices_S128x32x256_o0_0_0_S128x32x32) bitsLt_bf16_f32)
    (truncf .bf16 (extractStridedSlice S128x32x32 ![0, 0, 64] (k0_pay2 X Wt) slices_S128x32x256_o0_0_64_S128x32x32) bitsLt_bf16_f32)
    (constant S128x32x32 .f32 0x00000000#32)

/-- Head 0's piece is the general head term at its own three inputs. -/
theorem pay3_eq (X : Vec Ideal S128x32x64 .f32) (Wt : Vec Ideal S64x256 .f32) :
    k0_pay3 X Wt = k0_pay1 (val0 X Wt) (res0 X Wt) (sco0 X Wt) := rfl

theorem zero_head : (0 : Nat) = 0 + 32 * (0 : Fin 2).val := rfl
theorem k_head0 : (64 : Nat) = 64 + 32 * (0 : Fin 2).val := rfl
theorem v_head0 : (128 : Nat) = 128 + 32 * (0 : Fin 2).val := rfl
theorem r_head0 : (192 : Nat) = 192 + 32 * (0 : Fin 2).val := rfl
theorem q_head1 : (32 : Nat) = 0 + 32 * (1 : Fin 2).val := rfl
theorem k_head1 : (96 : Nat) = 64 + 32 * (1 : Fin 2).val := rfl
theorem v_head1 : (160 : Nat) = 128 + 32 * (1 : Fin 2).val := rfl
theorem r_head1 : (224 : Nat) = 192 + 32 * (1 : Fin 2).val := rfl

theorem sco0_at (X : Vec Ideal S128x32x64 .f32) (Wt : Vec Ideal S64x256 .f32) (b : Fin 128) (q k : Fin 32) :
    sco0 X Wt (ix3 b q k) = rowScore (blkProj X Wt 0 (by omega) b) (blkProj X Wt 64 (by omega) b) 0 q k :=
  scores_at X Wt 0 64 slices_S128x32x256_o0_0_0_S128x32x32 slices_S128x32x256_o0_0_64_S128x32x32 0 zero_head k_head0 b q k
theorem val0_at (X : Vec Ideal S128x32x64 .f32) (Wt : Vec Ideal S64x256 .f32) (b : Fin 128) (k a : Fin 32) :
    val0 X Wt (ix3 b k a) = blkProj X Wt 128 (by omega) b k (lane 0 a) :=
  slice_at X Wt 128 slices_S128x32x256_o0_0_128_S128x32x32 128 (by omega) 0 v_head0 b k a
theorem res0_at (X : Vec Ideal S128x32x64 .f32) (Wt : Vec Ideal S64x256 .f32) (b : Fin 128) (q a : Fin 32) :
    res0 X Wt (ix3 b q a) = blkProj X Wt 192 (by omega) b q (lane 0 a) :=
  slice_at X Wt 192 slices_S128x32x256_o0_0_192_S128x32x32 192 (by omega) 0 r_head0 b q a

theorem sco1_at (X : Vec Ideal S128x32x64 .f32) (Wt : Vec Ideal S64x256 .f32) (b : Fin 128) (q k : Fin 32) :
    k0_pay6 X Wt (ix3 b q k) = rowScore (blkProj X Wt 0 (by omega) b) (blkProj X Wt 64 (by omega) b) 1 q k :=
  scores_at X Wt 32 96 slices_S128x32x256_o0_0_32_S128x32x32 slices_S128x32x256_o0_0_96_S128x32x32 1 q_head1 k_head1 b q k
theorem val1_at (X : Vec Ideal S128x32x64 .f32) (Wt : Vec Ideal S64x256 .f32) (b : Fin 128) (k a : Fin 32) :
    k0_pay4 X Wt (ix3 b k a) = blkProj X Wt 128 (by omega) b k (lane 1 a) :=
  slice_at X Wt 160 slices_S128x32x256_o0_0_160_S128x32x32 128 (by omega) 1 v_head1 b k a
theorem res1_at (X : Vec Ideal S128x32x64 .f32) (Wt : Vec Ideal S64x256 .f32) (b : Fin 128) (q a : Fin 32) :
    k0_pay5 X Wt (ix3 b q a) = blkProj X Wt 192 (by omega) b q (lane 1 a) :=
  slice_at X Wt 224 slices_S128x32x256_o0_0_224_S128x32x32 192 (by omega) 1 r_head1 b q a

/-- Entry (b, q, a) of head 0's piece. -/
theorem head0_at (X : Vec Ideal S128x32x64 .f32) (Wt : Vec Ideal S64x256 .f32) (b : Fin 128) (q a : Fin 32) :
    k0_pay3 X Wt (ix3 b q a)
      = rowEntry (blkProj X Wt 0 (by omega) b) (blkProj X Wt 64 (by omega) b) (blkProj X Wt 128 (by omega) b) (blkProj X Wt 192 (by omega) b) q 0 a := by
  rw [pay3_eq]
  exact head_at (val0 X Wt) (res0 X Wt) (sco0 X Wt)
    (blkProj X Wt 0 (by omega)) (blkProj X Wt 64 (by omega)) (blkProj X Wt 128 (by omega)) (blkProj X Wt 192 (by omega)) 0
    (sco0_at X Wt) (val0_at X Wt) (res0_at X Wt) b q a

/-- Entry (b, q, a) of head 1's piece. -/
theorem head1_at (X : Vec Ideal S128x32x64 .f32) (Wt : Vec Ideal S64x256 .f32) (b : Fin 128) (q a : Fin 32) :
    k0_pay1 (k0_pay4 X Wt) (k0_pay5 X Wt) (k0_pay6 X Wt) (ix3 b q a)
      = rowEntry (blkProj X Wt 0 (by omega) b) (blkProj X Wt 64 (by omega) b) (blkProj X Wt 128 (by omega) b) (blkProj X Wt 192 (by omega) b) q 1 a :=
  head_at (k0_pay4 X Wt) (k0_pay5 X Wt) (k0_pay6 X Wt)
    (blkProj X Wt 0 (by omega)) (blkProj X Wt 64 (by omega)) (blkProj X Wt 128 (by omega)) (blkProj X Wt 192 (by omega)) 1
    (sco1_at X Wt) (val1_at X Wt) (res1_at X Wt) b q a

end Cert.KernelIdeal.Hand

end
-- ==== Proof.KernelValue.lean ====
/-
  From the blocks the grid points write back to the whole result array.

  Grid point `t` stages rows `128·t … 128·t + 127` of the input (all positions, all lanes) and the whole fused
  weight, and writes back rows `128·t … 128·t + 127` of the result.  The fused weight is the four 64×64 weights
  side by side, so column `64·j + e` of it is column `e` of weight `j`; hence the block-local projection by
  columns `64·j …` of batch row `b` of block `t` is the whole-array projection of batch row `128·t + b` by
  weight `j`.  The output block's entry (b, q, e) is head `e / 32`'s piece at lane `e mod 32` (lanes 32–63 are
  the later store, lanes 0–31 the earlier), which is the specification's entry for batch row `128·t + b`.  So
  what point `t` writes back is block `t` of the specification's result array; the 128 blocks cover the array
  (row `r` lies in block `r / 128`); therefore the array ends holding the specification's result.
-/
import proofs.«100594_j83674552861142_2_alg».proof.Proof.KernelIdealRun
import proofs.«100594_j83674552861142_2_alg».proof.Proof.KernelEntry
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Cert.Attn
open Idealize.ShloMosaic Idealize.ShloMosaic.TcCoe Idealize.ShloMosaic.ValueIdx Idealize.SL.Sem
open Idealize.ShloMosaic.StableHlo
open Idealize.ShloMosaic.Pipeline (Dat)

/-! ## The output block, entry by entry -/

theorem hz3 : (![0, 0, 0] : Fin 3 → Nat) = fun _ => 0 := funext fun a => by fin_cases a <;> rfl
theorem hz2 : (![0, 0] : Fin 2 → Nat) = fun _ => 0 := funext fun a => by fin_cases a <;> rfl

/-- Two pieces laid over a [128,32,64] block — the later over lanes 32–63, the earlier over lanes 0–31 — read at a
    lane of the lower half: the earlier piece. -/
theorem canon_lo (p1 p0 : Vec Ideal S128x32x32 .f32) (b : Fin 128) (q a : Fin 32) :
    View.canon [(⟨rHi, p1⟩ : View.Piece (Elt Ideal) S128x32x64 .f32), ⟨rLo, p0⟩] (ix3 b q (⟨a.val, by omega⟩ : Fin 64)) = p0 (ix3 b q a) := by
  have hnot : ix3 b q (⟨a.val, by omega⟩ : Fin 64) ∉ (⟨rHi, p1⟩ : View.Piece (Elt Ideal) S128x32x64 .f32).1.set := by
    intro hmem
    have hmem' : ix3 b q (⟨a.val, by omega⟩ : Fin 64) ∈ rHi.set := hmem
    rw [Rect.mem_set_unit] at hmem'
    have h2 : (32 : Nat) ≤ a.val := (hmem' (2 : Fin 3)).1
    omega
  have hy : ix3 b q (⟨a.val, by omega⟩ : Fin 64) = rLo.emb (ix3 b q a) := funext fun d => Fin.ext (by
    match d with
    | ⟨0, _⟩ => show b.val = 0 + 1 * b.val; omega
    | ⟨1, _⟩ => show q.val = 0 + 1 * q.val; omega
    | ⟨2, _⟩ => show a.val = 0 + 1 * a.val; omega)
  exact (View.canon_cons_of_not_mem (⟨rHi, p1⟩ : View.Piece (Elt Ideal) S128x32x64 .f32) [⟨rLo, p0⟩] hnot).trans
    ((congrArg (View.canon [(⟨rLo, p0⟩ : View.Piece (Elt Ideal) S128x32x64 .f32)]) hy).trans
      (View.canon_cons_emb rLo p0 [] (ix3 b q a)))

/-- The same read at a lane of the upper half: the later piece. -/
theorem canon_hi (p1 p0 : Vec Ideal S128x32x32 .f32) (b : Fin 128) (q a : Fin 32) :
    View.canon [(⟨rHi, p1⟩ : View.Piece (Elt Ideal) S128x32x64 .f32), ⟨rLo, p0⟩] (ix3 b q (⟨32 + a.val, by omega⟩ : Fin 64)) = p1 (ix3 b q a) := by
  have hy : ix3 b q (⟨32 + a.val, by omega⟩ : Fin 64) = rHi.emb (ix3 b q a) := funext fun d => Fin.ext (by
    match d with
    | ⟨0, _⟩ => show b.val = 0 + 1 * b.val; omega
    | ⟨1, _⟩ => show q.val = 0 + 1 * q.val; omega
    | ⟨2, _⟩ => show 32 + a.val = 32 + 1 * a.val; omega)
  exact (congrArg (View.canon [(⟨rHi, p1⟩ : View.Piece (Elt Ideal) S128x32x64 .f32), ⟨rLo, p0⟩]) hy).trans
    (View.canon_cons_emb rHi p1 [⟨rLo, p0⟩] (ix3 b q a))

/-- The output block at a lane of head 0 … -/
theorem outBlk_lo (X : Vec Ideal S128x32x64 .f32) (Wt : Vec Ideal S64x256 .f32) (b : Fin 128) (q a : Fin 32) :
    outBlk X Wt (ix3 b q (⟨a.val, by omega⟩ : Fin 64)) = rowEntry (blkProj X Wt 0 (by omega) b) (blkProj X Wt 64 (by omega) b) (blkProj X Wt 128 (by omega) b) (blkProj X Wt 192 (by omega) b) q 0 a := by
  unfold outBlk
  simp only [View.ld_unit_zero (S := S128x32x64) hz3, View.ld_unit_zero (S := S64x256) hz2]
  exact (canon_lo _ _ b q a).trans (head0_at X Wt b q a)

/-- … and of head 1. -/
theorem outBlk_hi (X : Vec Ideal S128x32x64 .f32) (Wt : Vec Ideal S64x256 .f32) (b : Fin 128) (q a : Fin 32) :
    outBlk X Wt (ix3 b q (⟨32 + a.val, by omega⟩ : Fin 64)) = rowEntry (blkProj X Wt 0 (by omega) b) (blkProj X Wt 64 (by omega) b) (blkProj X Wt 128 (by omega) b) (blkProj X Wt 192 (by omega) b) q 1 a := by
  unfold outBlk
  simp only [View.ld_unit_zero (S := S128x32x64) hz3, View.ld_unit_zero (S := S64x256) hz2]
  exact (canon_hi _ _ b q a).trans (head1_at X Wt b q a)

/-- Entry (b, q, e) of the output block, from the two input blocks: head `e / 32`'s piece at lane `e mod 32`. -/
theorem outBlk_at (X : Vec Ideal S128x32x64 .f32) (Wt : Vec Ideal S64x256 .f32) (b : Fin 128) (q : Fin 32) (e : Fin 64) :
    outBlk X Wt (ix3 b q e) = rowEntry (blkProj X Wt 0 (by omega) b) (blkProj X Wt 64 (by omega) b) (blkProj X Wt 128 (by omega) b) (blkProj X Wt 192 (by omega) b) q (headOf e) (laneOf e) := by
  by_cases he : e.val < 32
  · have hlane : laneOf e = (⟨e.val, he⟩ : Fin 32) := Fin.ext (by show e.val % 32 = e.val; omega)
    have hhead : headOf e = (0 : Fin 2) := Fin.ext (by show e.val / 32 = 0; omega)
    rw [hlane, hhead]
    exact outBlk_lo X Wt b q ⟨e.val, he⟩
  · have he' : e.val - 32 < 32 := by have := e.isLt; omega
    have hlane : laneOf e = (⟨e.val - 32, he'⟩ : Fin 32) := Fin.ext (by show e.val % 32 = e.val - 32; have := e.isLt; omega)
    have hhead : headOf e = (1 : Fin 2) := Fin.ext (by show e.val / 32 = 1; have := e.isLt; omega)
    have hE : e = (⟨32 + (e.val - 32), by have := e.isLt; omega⟩ : Fin 64) := Fin.ext (by show e.val = 32 + (e.val - 32); omega)
    rw [hlane, hhead]
    exact (congrArg (fun z : Fin 64 => outBlk X Wt (ix3 b q z)) hE).trans (outBlk_hi X Wt b q ⟨e.val - 32, he'⟩)

/-- The same at any index of the block. -/
theorem outBlk_apply (X : Vec Ideal S128x32x64 .f32) (Wt : Vec Ideal S64x256 .f32) (y : S128x32x64.Idx) :
    outBlk X Wt y = rowEntry (blkProj X Wt 0 (by omega) (y 0)) (blkProj X Wt 64 (by omega) (y 0)) (blkProj X Wt 128 (by omega) (y 0)) (blkProj X Wt 192 (by omega) (y 0)) (y 1) (headOf (y 2)) (laneOf (y 2)) :=
  (congrArg (outBlk X Wt) (eq_ix3 y)).trans (outBlk_at X Wt (y 0) (y 1) (y 2))

/-! ## The fused weight, column by column -/

theorem fused_q (w0 w1 w2 w3 : S64x64.Idx → EReal)
    (hc : Shape.Concatenates [S64x64, S64x64, S64x64, S64x64] S64x256 1) (d e : Fin 64) :
    concatenate S64x256 1 [⟨S64x64, w0⟩, ⟨S64x64, w1⟩, ⟨S64x64, w2⟩, ⟨S64x64, w3⟩] hc (ix2 d (⟨0 + e.val, by omega⟩ : Fin 256)) = w0 (ix2 d e) :=
  concatenate_apply_piece (t := S64x256) (1 : Fin 2) [⟨S64x64, w0⟩, ⟨S64x64, w1⟩, ⟨S64x64, w2⟩, ⟨S64x64, w3⟩] hc _ 0 (by simp) S64x64 w0 rfl rfl 0 rfl (ix2 d e)
    (fun b hb => by
      match b, hb with
      | ⟨0, _⟩, _ => rfl
      | ⟨1, _⟩, hb => exact absurd rfl hb) rfl
theorem fused_k (w0 w1 w2 w3 : S64x64.Idx → EReal)
    (hc : Shape.Concatenates [S64x64, S64x64, S64x64, S64x64] S64x256 1) (d e : Fin 64) :
    concatenate S64x256 1 [⟨S64x64, w0⟩, ⟨S64x64, w1⟩, ⟨S64x64, w2⟩, ⟨S64x64, w3⟩] hc (ix2 d (⟨64 + e.val, by omega⟩ : Fin 256)) = w1 (ix2 d e) :=
  concatenate_apply_piece (t := S64x256) (1 : Fin 2) [⟨S64x64, w0⟩, ⟨S64x64, w1⟩, ⟨S64x64, w2⟩, ⟨S64x64, w3⟩] hc _ 1 (by simp) S64x64 w1 rfl rfl 64 rfl (ix2 d e)
    (fun b hb => by
      match b, hb with
      | ⟨0, _⟩, _ => rfl
      | ⟨1, _⟩, hb => exact absurd rfl hb) rfl
theorem fused_v (w0 w1 w2 w3 : S64x64.Idx → EReal)
    (hc : Shape.Concatenates [S64x64, S64x64, S64x64, S64x64] S64x256 1) (d e : Fin 64) :
    concatenate S64x256 1 [⟨S64x64, w0⟩, ⟨S64x64, w1⟩, ⟨S64x64, w2⟩, ⟨S64x64, w3⟩] hc (ix2 d (⟨128 + e.val, by omega⟩ : Fin 256)) = w2 (ix2 d e) :=
  concatenate_apply_piece (t := S64x256) (1 : Fin 2) [⟨S64x64, w0⟩, ⟨S64x64, w1⟩, ⟨S64x64, w2⟩, ⟨S64x64, w3⟩] hc _ 2 (by simp) S64x64 w2 rfl rfl 128 rfl (ix2 d e)
    (fun b hb => by
      match b, hb with
      | ⟨0, _⟩, _ => rfl
      | ⟨1, _⟩, hb => exact absurd rfl hb) rfl
theorem fused_r (w0 w1 w2 w3 : S64x64.Idx → EReal)
    (hc : Shape.Concatenates [S64x64, S64x64, S64x64, S64x64] S64x256 1) (d e : Fin 64) :
    concatenate S64x256 1 [⟨S64x64, w0⟩, ⟨S64x64, w1⟩, ⟨S64x64, w2⟩, ⟨S64x64, w3⟩] hc (ix2 d (⟨192 + e.val, by omega⟩ : Fin 256)) = w3 (ix2 d e) :=
  concatenate_apply_piece (t := S64x256) (1 : Fin 2) [⟨S64x64, w0⟩, ⟨S64x64, w1⟩, ⟨S64x64, w2⟩, ⟨S64x64, w3⟩] hc _ 3 (by simp) S64x64 w3 rfl rfl 192 rfl (ix2 d e)
    (fun b hb => by
      match b, hb with
      | ⟨0, _⟩, _ => rfl
      | ⟨1, _⟩, hb => exact absurd rfl hb) rfl

variable (m : (ℓ : Loc nD τ sig) → Buf (Elt Ideal) ℓ) (ρ : Dev nD → PrngReg)

/-- The region finds the fused-weight buffer at the four weights side by side. -/
theorem V_fused (c : Dev nD) : (V m c main_v0 : S64x256.Idx → EReal)
    = concatenate S64x256 1 [⟨S64x64, m ((c : Thread nD τ).loc main_arg1)⟩, ⟨S64x64, m ((c : Thread nD τ).loc main_arg2)⟩, ⟨S64x64, m ((c : Thread nD τ).loc main_arg3)⟩, ⟨S64x64, m ((c : Thread nD τ).loc main_arg4)⟩] concatenates_S64x64_S64x64_S64x64_S64x64_S64x256_d1 := by
  dsimp only [V]
  simp only [hostOps0, List.flatten_cons, List.flatten_nil, List.append_nil, List.cons_append, List.nil_append]
  after_results
  rfl

/-! ## The windows' blocks, entry by entry -/

/-- Block indices over the grid: point `t` takes input block `t` and output block `t` along the rows, the whole
    extent on the other axes, and the fused weight whole. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 128 := lt_of_lt_of_eq t.isLt N_0

/-- Batch row `b` of block `t` is row `128·t + b` of the array. -/
def rowOf (t : Fin cfg0.N) (b : Fin 128) : Fin 16384 := ⟨128 * t.val + b.val, by have := t_lt t; omega⟩

/-- The input block at point `t`, entry (b, f, d). -/
theorem iblk0_at (c : Dev nD) (t : Fin cfg0.N) (b : Fin 128) (f : Fin 32) (d : Fin 64) :
    iblk m c 0 t (ix3 b f d) = m ((c : Thread nD τ).loc main_arg0) (ix3 (rowOf t b) f d) := by
  show V m c main_arg0 (((cfg0.win 0).blk t).view.emb (ix3 b f d)) = _
  rw [V_main_arg0]
  obtain ⟨e0, e1, e2, -, -, -, -, -⟩ := idx_facts t
  refine congrArg (m ((c : Thread nD τ).loc main_arg0)) (funext fun a => Fin.ext ?_)
  match a with
  | ⟨0, _⟩ => show win0_0.index t (0 : Fin 3) * 128 + 1 * b.val = 128 * t.val + b.val; omega
  | ⟨1, _⟩ => show win0_0.index t (1 : Fin 3) * 32 + 1 * f.val = f.val; omega
  | ⟨2, _⟩ => show win0_0.index t (2 : Fin 3) * 64 + 1 * d.val = d.val; omega

/-- The fused-weight block at any point is the whole fused weight. -/
theorem iblk1_at (c : Dev nD) (t : Fin cfg0.N) (d : Fin 64) (n : Fin 256) :
    iblk m c 1 t (ix2 d n) = (V m c main_v0 : S64x256.Idx → EReal) (ix2 d n) := by
  show V m c main_v0 (((cfg0.win 1).blk t).view.emb (ix2 d n)) = _
  obtain ⟨-, -, -, e0, e1, -, -, -⟩ := idx_facts t
  refine congrArg (V m c main_v0) (funext fun a => Fin.ext ?_)
  match a with
  | ⟨0, _⟩ => show win0_1.index t (0 : Fin 2) * 64 + 1 * d.val = d.val; omega
  | ⟨1, _⟩ => show win0_1.index t (1 : Fin 2) * 256 + 1 * n.val = n.val; omega

/-- The block-local projections are the whole-array ones of row `128·t + b`. -/
theorem blkProj_q (c : Dev nD) (t : Fin cfg0.N) (b : Fin 128) :
    blkProj (iblk m c 0 t) (iblk m c 1 t) 0 (by omega) b = proj (m ((c : Thread nD τ).loc main_arg0)) (m ((c : Thread nD τ).loc main_arg1)) (rowOf t b) := by
  funext f e
  unfold blkProj proj
  refine Finset.sum_congr rfl fun d _ => ?_
  rw [iblk0_at, iblk1_at, V_fused, fused_q]
theorem blkProj_k (c : Dev nD) (t : Fin cfg0.N) (b : Fin 128) :
    blkProj (iblk m c 0 t) (iblk m c 1 t) 64 (by omega) b = proj (m ((c : Thread nD τ).loc main_arg0)) (m ((c : Thread nD τ).loc main_arg2)) (rowOf t b) := by
  funext f e
  unfold blkProj proj
  refine Finset.sum_congr rfl fun d _ => ?_
  rw [iblk0_at, iblk1_at, V_fused, fused_k]
theorem blkProj_v (c : Dev nD) (t : Fin cfg0.N) (b : Fin 128) :
    blkProj (iblk m c 0 t) (iblk m c 1 t) 128 (by omega) b = proj (m ((c : Thread nD τ).loc main_arg0)) (m ((c : Thread nD τ).loc main_arg3)) (rowOf t b) := by
  funext f e
  unfold blkProj proj
  refine Finset.sum_congr rfl fun d _ => ?_
  rw [iblk0_at, iblk1_at, V_fused, fused_v]
theorem blkProj_r (c : Dev nD) (t : Fin cfg0.N) (b : Fin 128) :
    blkProj (iblk m c 0 t) (iblk m c 1 t) 192 (by omega) b = proj (m ((c : Thread nD τ).loc main_arg0)) (m ((c : Thread nD τ).loc main_arg4)) (rowOf t b) := by
  funext f e
  unfold blkProj proj
  refine Finset.sum_congr rfl fun d _ => ?_
  rw [iblk0_at, iblk1_at, V_fused, fused_r]

/-! ## What a point writes back, the cover, the array -/

/-- The block's entry (b, q, e) at point `t` is the specification's entry (128·t + b, q, e). -/
theorem entry_eq (c : Dev nD) (t : Fin cfg0.N) (b : Fin 128) (q : Fin 32) (e : Fin 64) :
    rowEntry (blkProj (iblk m c 0 t) (iblk m c 1 t) 0 (by omega) b) (blkProj (iblk m c 0 t) (iblk m c 1 t) 64 (by omega) b) (blkProj (iblk m c 0 t) (iblk m c 1 t) 128 (by omega) b) (blkProj (iblk m c 0 t) (iblk m c 1 t) 192 (by omega) b)
        q (headOf e) (laneOf e)
      = result (m ((c : Thread nD τ).loc main_arg0)) (m ((c : Thread nD τ).loc main_arg1)) (m ((c : Thread nD τ).loc main_arg2)) (m ((c : Thread nD τ).loc main_arg3)) (m ((c : Thread nD τ).loc main_arg4)) (ix3 (rowOf t b) q e) := by
  rw [blkProj_q, blkProj_k, blkProj_v, blkProj_r]
  rfl

/-- What point `t` writes back is block `t` of the specification's result. -/
theorem flushed_eq (c : Dev nD) (t : Fin cfg0.N) :
    (dats m 0 c).flushed 2 t = ((cfg0.win 2).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 2).cut (grid0.coords t) ((dats m 0 c).after 2 t) = _
  rw [after0_2]
  funext y
  show outBlk (iblk m c 0 t) (iblk m c 1 t) y = result (m ((c : Thread nD τ).loc main_arg0)) (m ((c : Thread nD τ).loc main_arg1)) (m ((c : Thread nD τ).loc main_arg2)) (m ((c : Thread nD τ).loc main_arg3)) (m ((c : Thread nD τ).loc main_arg4)) (((cfg0.win 2).blk t).view.emb y)
  refine (outBlk_apply (iblk m c 0 t) (iblk m c 1 t) y).trans ?_
  obtain ⟨-, -, -, -, -, e0, e1, e2⟩ := idx_facts t
  have hemb : ((cfg0.win 2).blk t).view.emb y = ix3 (rowOf t (y 0)) (y 1) (y 2) := funext fun a => Fin.ext (by
    match a with
    | ⟨0, _⟩ => show win0_2.index t (0 : Fin 3) * 128 + 1 * (y 0).val = 128 * t.val + (y 0).val; omega
    | ⟨1, _⟩ => show win0_2.index t (1 : Fin 3) * 32 + 1 * (y 1).val = (y 1).val; omega
    | ⟨2, _⟩ => show win0_2.index t (2 : Fin 3) * 64 + 1 * (y 2).val = (y 2).val; omega)
  rw [hemb]
  exact entry_eq m c t (y 0) (y 1) (y 2)

/-- An index of the array is in point `t`'s block iff each coordinate is in the block's range on its axis. -/
theorem mem_blk (t : Fin cfg0.N) (i : S16384x32x64.Idx) :
    i ∈ ((cfg0.win 2).blk t).view.set ↔ ∀ a : Fin 3, win0_2.index t a * S128x32x64.size a ≤ (i a).val ∧ (i a).val < win0_2.index t a * S128x32x64.size a + S128x32x64.size a := by
  show i ∈ ((View.whole main_v1).slice (win0_2.rect t)).set ↔ _
  rw [View.set_slice_whole, Rect.mem_set_unit]
  exact Iff.rfl

/-- Every index of the array lies in the block of the point its row names. -/
theorem cover (i : S16384x32x64.Idx) : ∃ t : Fin cfg0.N, (cfg0.win 2).flush t = true ∧ i ∈ ((cfg0.win 2).blk t).view.set := by
  have hi0 : (i 0).val < 16384 := (i 0).isLt
  have hi1 : (i 1).val < 32 := (i 1).isLt
  have hi2 : (i 2).val < 64 := (i 2).isLt
  have hN : cfg0.N = 128 := N_0
  obtain ⟨t, htv⟩ : ∃ t : Fin cfg0.N, t.val = (i 0).val / 128 := ⟨⟨(i 0).val / 128, by rw [hN]; omega⟩, rfl⟩
  obtain ⟨-, -, -, -, -, e0, e1, e2⟩ := idx_facts t
  refine ⟨t, flush0_2 t, ?_⟩
  rw [mem_blk]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 32 ≤ (i 1).val ∧ (i 1).val < win0_2.index t (1 : Fin 3) * 32 + 32; omega
  | ⟨2, _⟩ => show win0_2.index t (2 : Fin 3) * 64 ≤ (i 2).val ∧ (i 2).val < win0_2.index t (2 : Fin 3) * 64 + 64; omega

/-- The result array after the run is the specification's result of the argument arrays. -/
theorem final (c : Dev nD) : (dats m 0 c).arrAt 2 cfg0.N = result (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 2 (result (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-! ## The run, read -/

/-- Every weakly fair execution of the idealized kernel's @main terminates with the result array at the
    specification's result of the argument arrays, and the argument arrays as launched. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefIsAttn.lean ====
/-
  The reference program computes the attention specification, entry by entry.

  The generated reading module gives every operation of the reference as a function of the five argument
  arrays, read at an index from its operands at computed indices.  Here each intermediate array is read at
  EXPLICIT coordinates and identified with the specification's quantity for one batch row:

    projection  x · w            at (b, f, e)        is  proj x w b f e
    its reshape and transpose    at (b, h, f, a)     is  proj x w b f (lane h a)      (lane 32·h + a)
    the scores                   at (b, h, q, k)     is  rowScore … h q k
    their maximum over k         at (b, h, q)        is  the fold of max from −∞, then capped below by −∞: rowMax
    the exponentials             at (b, h, q, k)     is  rowExpo … h q k
    their sum over k             at (b, h, q)        is  rowDenom … h q               (0 + the sum)
    the weights                  at (b, h, q, k)     is  rowWeight … h q k
    the attended values          at (b, h, q, a)     is  rowAttend … h q a
    transposed back, reshaped    at (b, q, e)        is  rowAttend … (head of e) q (lane of e within its head)
    plus the residual, clipped   at (b, q, e)        is  the specification's entry.

  The only arithmetic is that of the reshapes: the row-major position ((b·32 + f)·2 + h)·32 + a of a
  [16384, 32, 2, 32] index is the position (b·32 + f)·64 + (32·h + a) of the [16384, 32, 64] index, and back.
  No law of the extended reals is used beyond 0 + s = s for the sum that starts from the zero constant.
-/
import proofs.«100594_j83674552861142_2_alg».proof.Proof.Gen.ReferenceIdeal.Read
import proofs.«100594_j83674552861142_2_alg».proof.Proof.AttnSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefAttn

open Cert.ReferenceIdeal Cert.ReferenceIdeal.Gen Cert.ReferenceIdeal.Read Idealize.ShloMosaic Idealize.ShloMosaic.ValueIdx

/-! ## The reading lemmas' index maps, at coordinates -/

/-- A projection's left operand index: row (b, f) of the input, column k. -/
theorem lidx_proj_at (b : Fin 16384) (f : Fin 32) (e k : Fin 64) : lidx_main_v0 (ix3 b f e) k = ix3 b f k := by
  funext c; match c with | ⟨0, _⟩ => rfl | ⟨1, _⟩ => rfl | ⟨2, _⟩ => rfl

/-- A projection's right operand index: row k of the weight, column e. -/
theorem ridx_proj_at (b : Fin 16384) (f : Fin 32) (e k : Fin 64) : ridx_main_v0 (ix3 b f e) k = ix2 k e := by
  funext c; match c with | ⟨0, _⟩ => rfl | ⟨1, _⟩ => rfl

/-- The transpose to [16384, 2, 32, 32] reads position and head exchanged. -/
theorem idx_v2_at (b : Fin 16384) (h : Fin 2) (f a : Fin 32) : idx_main_v2 (ix4 b h f a) = ix4 b f h a := by
  funext c; match c with | ⟨0, _⟩ => rfl | ⟨1, _⟩ => rfl | ⟨2, _⟩ => rfl | ⟨3, _⟩ => rfl

/-- The reshape [16384, 32, 64] → [16384, 32, 2, 32] reads lane 32·h + a. -/
theorem idx_v1_at (b : Fin 16384) (f : Fin 32) (h : Fin 2) (a : Fin 32) :
    idx_main_v1 (ix4 b f h a) = ix3 b f (Attn.lane h a) := by
  have hb := b.isLt; have hf := f.isLt; have hh := h.isLt; have ha := a.isLt
  funext c; apply Fin.ext
  match c with
  | ⟨0, _⟩ => show (((b.val * 32 + f.val) * 2 + h.val) * 32 + a.val) / 2048 = b.val; omega
  | ⟨1, _⟩ => show (((b.val * 32 + f.val) * 2 + h.val) * 32 + a.val) / 64 % 32 = f.val; omega
  | ⟨2, _⟩ => show (((b.val * 32 + f.val) * 2 + h.val) * 32 + a.val) % 64 = 32 * h.val + a.val; omega

/-- The scores' left operand index: query position q, lane a of the head. -/
theorem lidx_v9_at (b : Fin 16384) (h : Fin 2) (q k a : Fin 32) : lidx_main_v9 (ix4 b h q k) a = ix4 b h q a := by
  funext c; match c with | ⟨0, _⟩ => rfl | ⟨1, _⟩ => rfl | ⟨2, _⟩ => rfl | ⟨3, _⟩ => rfl

/-- The scores' right operand index: key position k, lane a of the head. -/
theorem ridx_v9_at (b : Fin 16384) (h : Fin 2) (q k a : Fin 32) : ridx_main_v9 (ix4 b h q k) a = ix4 b h k a := by
  funext c; match c with | ⟨0, _⟩ => rfl | ⟨1, _⟩ => rfl | ⟨2, _⟩ => rfl | ⟨3, _⟩ => rfl

/-- The reduced index (b, h, q) with key position k put back on the last axis is (b, h, q, k). -/
theorem lift_at (hR : S16384x2x32x32.Reduces [3] S16384x2x32) (b : Fin 16384) (h : Fin 2) (q : Fin 32)
    (k : Fin (S16384x2x32x32.size 3)) : hR.lift (ix3 b h q) k = ix4 b h q (⟨k.val, k.isLt⟩ : Fin 32) := by
  funext c; apply Fin.ext
  match c with | ⟨0, _⟩ => rfl | ⟨1, _⟩ => rfl | ⟨2, _⟩ => rfl | ⟨3, _⟩ => rfl

/-- The two broadcasts of a per-query quantity along the key axis read it at (b, h, q). -/
theorem idx_v14_at (b : Fin 16384) (h : Fin 2) (q k : Fin 32) : idx_main_v13 (idx_main_v14 (ix4 b h q k)) = ix3 b h q := by
  funext c; match c with | ⟨0, _⟩ => rfl | ⟨1, _⟩ => rfl | ⟨2, _⟩ => rfl

theorem idx_v19_at (b : Fin 16384) (h : Fin 2) (q k : Fin 32) : idx_main_v18 (idx_main_v19 (ix4 b h q k)) = ix3 b h q := by
  funext c; match c with | ⟨0, _⟩ => rfl | ⟨1, _⟩ => rfl | ⟨2, _⟩ => rfl

/-- The sum over the key axis reads (b, h, q, k). -/
theorem idx_v17_at (b : Fin 16384) (h : Fin 2) (q k : Fin 32) : idx_main_v17 (ix3 b h q) k = ix4 b h q k := by
  funext c; match c with | ⟨0, _⟩ => rfl | ⟨1, _⟩ => rfl | ⟨2, _⟩ => rfl | ⟨3, _⟩ => rfl

/-- The attended values' left operand index: the weight of key position k for query q. -/
theorem lidx_v21_at (b : Fin 16384) (h : Fin 2) (q a k : Fin 32) : lidx_main_v21 (ix4 b h q a) k = ix4 b h q k := by
  funext c; match c with | ⟨0, _⟩ => rfl | ⟨1, _⟩ => rfl | ⟨2, _⟩ => rfl | ⟨3, _⟩ => rfl

/-- The attended values' right operand index: the value projection at key position k, lane a. -/
theorem ridx_v21_at (b : Fin 16384) (h : Fin 2) (q a k : Fin 32) : ridx_main_v21 (ix4 b h q a) k = ix4 b h k a := by
  funext c; match c with | ⟨0, _⟩ => rfl | ⟨1, _⟩ => rfl | ⟨2, _⟩ => rfl | ⟨3, _⟩ => rfl

/-- The reshape back to 64 lanes, then the transpose back: lane e is lane e mod 32 of head e / 32. -/
theorem idx_v23_at (b : Fin 16384) (q : Fin 32) (e : Fin 64) :
    idx_main_v22 (idx_main_v23 (ix3 b q e)) = ix4 b (Attn.headOf e) q (Attn.laneOf e) := by
  have hb := b.isLt; have hq := q.isLt; have he := e.isLt
  funext c; apply Fin.ext
  match c with
  | ⟨0, _⟩ => show ((b.val * 32 + q.val) * 64 + e.val) / 2048 = b.val; omega
  | ⟨1, _⟩ => show ((b.val * 32 + q.val) * 64 + e.val) / 32 % 2 = e.val / 32; omega
  | ⟨2, _⟩ => show ((b.val * 32 + q.val) * 64 + e.val) / 64 % 32 = q.val; omega
  | ⟨3, _⟩ => show ((b.val * 32 + q.val) * 64 + e.val) % 32 = e.val % 32; omega

/-! ## The intermediate arrays, at coordinates -/

variable (x0 : (⟨S16384x32x64, .f32⟩ : BufTy).Contents (Elt Ideal)) (w x1 x2 x3 x4 : (⟨S64x64, .f32⟩ : BufTy).Contents (Elt Ideal))

/-- A projection at (b, f, e) is the specification's. -/
theorem v0_read (b : Fin 16384) (f : Fin 32) (e : Fin 64) :
    val_main_v0 (F := Ideal) x0 w (ix3 b f e) = Attn.proj x0 w b f e := by
  rw [val_main_v0_apply]
  show _ = ∑ d : Fin 64, x0 (ix3 b f d) * w (ix2 d e)
  refine Finset.sum_congr rfl fun k _ => ?_
  rw [lidx_proj_at, ridx_proj_at]

/-- A projection reshaped into heads and transposed, at (b, h, f, a), is the projection at lane 32·h + a. -/
theorem v2_read (b : Fin 16384) (h : Fin 2) (f a : Fin 32) :
    val_main_v2 (F := Ideal) x0 w (ix4 b h f a) = Attn.proj x0 w b f (Attn.lane h a) := by
  rw [val_main_v2_apply, val_main_v1_apply, idx_v2_at, idx_v1_at, v0_read]

/-- The key, value and residual projections are the same operations on another weight. -/
theorem v5_read (b : Fin 16384) (h : Fin 2) (f a : Fin 32) :
    val_main_v5 (F := Ideal) x0 w (ix4 b h f a) = Attn.proj x0 w b f (Attn.lane h a) := v2_read x0 w b h f a

theorem v8_read (b : Fin 16384) (h : Fin 2) (f a : Fin 32) :
    val_main_v8 (F := Ideal) x0 w (ix4 b h f a) = Attn.proj x0 w b f (Attn.lane h a) := v2_read x0 w b h f a

theorem v24_read (b : Fin 16384) (f : Fin 32) (e : Fin 64) :
    val_main_v24 (F := Ideal) x0 w (ix3 b f e) = Attn.proj x0 w b f e := v0_read x0 w b f e

/-- The scores at (b, h, q, k). -/
theorem v9_read (b : Fin 16384) (h : Fin 2) (q k : Fin 32) :
    val_main_v9 (F := Ideal) x0 x1 x2 (ix4 b h q k) = Attn.rowScore (Attn.proj x0 x1 b) (Attn.proj x0 x2 b) h q k := by
  rw [val_main_v9_apply]
  show _ = ∑ a : Fin 32, Attn.proj x0 x1 b q (Attn.lane h a) * Attn.proj x0 x2 b k (Attn.lane h a)
  refine Finset.sum_congr rfl fun a _ => ?_
  rw [lidx_v9_at, ridx_v9_at, v2_read, v5_read]

/-- The maximum over the key axis at (b, h, q): the fold of max from −∞ over the query's scores. -/
theorem v10_read (b : Fin 16384) (h : Fin 2) (q : Fin 32) :
    val_main_v10 (F := Ideal) x0 x1 x2 (ix3 b h q)
      = (Finset.univ : Finset (Fin 32)).fold max Attn.negInf
          (fun k => Attn.rowScore (Attn.proj x0 x1 b) (Attn.proj x0 x2 b) h q k) := by
  have hR : S16384x2x32x32.Reduces [3] S16384x2x32 := by decide
  unfold val_main_v10
  refine (Host.reduce_eq_fold_single _ _ _ _ hR _ _).trans ?_
  have hf : (val_main_v9 (F := Ideal) x0 x1 x2 ∘ hR.lift (ix3 b h q))
      = fun k : Fin 32 => Attn.rowScore (Attn.proj x0 x1 b) (Attn.proj x0 x2 b) h q k :=
    funext fun k => by
      show val_main_v9 (F := Ideal) x0 x1 x2 (hR.lift (ix3 b h q) k) = _
      rw [lift_at, v9_read]
      rfl
  exact congrArg (fun g => Finset.fold max Attn.negInf g (Finset.univ : Finset (Fin 32))) hf

/-- The maximum as softmax takes it: capped below by −∞ once more. -/
theorem v12_read (b : Fin 16384) (h : Fin 2) (q : Fin 32) :
    val_main_v12 (F := Ideal) x0 x1 x2 (ix3 b h q) = Attn.rowMax (Attn.proj x0 x1 b) (Attn.proj x0 x2 b) h q := by
  rw [val_main_v12_apply, val_main_v11_apply, v10_read]
  rfl

/-- The maximum broadcast along the key axis. -/
theorem v14_read (b : Fin 16384) (h : Fin 2) (q k : Fin 32) :
    val_main_v14 (F := Ideal) x0 x1 x2 (ix4 b h q k) = Attn.rowMax (Attn.proj x0 x1 b) (Attn.proj x0 x2 b) h q := by
  rw [val_main_v14_apply, val_main_v13_apply, idx_v14_at, v12_read]

/-- The exponential of a score less its query's maximum. -/
theorem v16_read (b : Fin 16384) (h : Fin 2) (q k : Fin 32) :
    val_main_v16 (F := Ideal) x0 x1 x2 (ix4 b h q k) = Attn.rowExpo (Attn.proj x0 x1 b) (Attn.proj x0 x2 b) h q k := by
  rw [val_main_v16_apply, val_main_v15_apply, v9_read, v14_read]
  rfl

/-- The sum of a query's exponentials: the reference starts it from the zero constant, and 0 + s = s. -/
theorem v17_read (b : Fin 16384) (h : Fin 2) (q : Fin 32) :
    val_main_v17 (F := Ideal) x0 x1 x2 (ix3 b h q) = Attn.rowDenom (Attn.proj x0 x1 b) (Attn.proj x0 x2 b) h q := by
  rw [val_main_v17_apply]
  show Ideal.ofBits .f32 0x00000000#32 + _ = ∑ k : Fin 32, Attn.rowExpo (Attn.proj x0 x1 b) (Attn.proj x0 x2 b) h q k
  rw [Ideal.ofBits_zero_f32, zero_add]
  refine Finset.sum_congr rfl fun k _ => ?_
  rw [idx_v17_at, v16_read]

/-- The sum broadcast along the key axis. -/
theorem v19_read (b : Fin 16384) (h : Fin 2) (q k : Fin 32) :
    val_main_v19 (F := Ideal) x0 x1 x2 (ix4 b h q k) = Attn.rowDenom (Attn.proj x0 x1 b) (Attn.proj x0 x2 b) h q := by
  rw [val_main_v19_apply, val_main_v18_apply, idx_v19_at, v17_read]

/-- The softmax weights. -/
theorem v20_read (b : Fin 16384) (h : Fin 2) (q k : Fin 32) :
    val_main_v20 (F := Ideal) x0 x1 x2 (ix4 b h q k) = Attn.rowWeight (Attn.proj x0 x1 b) (Attn.proj x0 x2 b) h q k := by
  rw [val_main_v20_apply, v16_read, v19_read]
  rfl

/-- The attended values at (b, h, q, a). -/
theorem v21_read (b : Fin 16384) (h : Fin 2) (q a : Fin 32) :
    val_main_v21 (F := Ideal) x0 x1 x2 x3 (ix4 b h q a)
      = Attn.rowAttend (Attn.proj x0 x1 b) (Attn.proj x0 x2 b) (Attn.proj x0 x3 b) h q a := by
  rw [val_main_v21_apply]
  show _ = ∑ k : Fin 32, Attn.rowWeight (Attn.proj x0 x1 b) (Attn.proj x0 x2 b) h q k * Attn.proj x0 x3 b k (Attn.lane h a)
  refine Finset.sum_congr rfl fun k _ => ?_
  rw [lidx_v21_at, ridx_v21_at, v20_read, v8_read]

/-- The attended values transposed back and reshaped to 64 lanes, at (b, q, e). -/
theorem v23_read (b : Fin 16384) (q : Fin 32) (e : Fin 64) :
    val_main_v23 (F := Ideal) x0 x1 x2 x3 (ix3 b q e)
      = Attn.rowAttend (Attn.proj x0 x1 b) (Attn.proj x0 x2 b) (Attn.proj x0 x3 b) (Attn.headOf e) q (Attn.laneOf e) := by
  rw [val_main_v23_apply, val_main_v22_apply, idx_v23_at, v21_read]

/-- The result at (b, q, e): attended value plus residual projection, clipped below at zero. -/
theorem v26_read (b : Fin 16384) (q : Fin 32) (e : Fin 64) :
    val_main_v26 (F := Ideal) x0 x1 x2 x3 x4 (ix3 b q e) = Attn.result x0 x1 x2 x3 x4 (ix3 b q e) := by
  rw [val_main_v26_apply, val_main_v25_apply, v23_read, v24_read, val_main_call0_v0_apply]
  show max (Attn.rowAttend (Attn.proj x0 x1 b) (Attn.proj x0 x2 b) (Attn.proj x0 x3 b) (Attn.headOf e) q (Attn.laneOf e)
        + Attn.proj x0 x4 b q e) Attn.zeroF
    = max (Attn.rowAttend (Attn.proj x0 x1 b) (Attn.proj x0 x2 b) (Attn.proj x0 x3 b) (Attn.headOf e) q (Attn.laneOf e)
        + Attn.proj x0 x4 b q (Attn.lane (Attn.headOf e) (Attn.laneOf e))) Attn.zeroF
  rw [Attn.lane_headOf_laneOf]

/-- The reference's result array is the specification's. -/
theorem ref_eq_result (x0 : (⟨S16384x32x64, .f32⟩ : BufTy).Contents (Elt Ideal)) (x1 x2 x3 x4 : (⟨S64x64, .f32⟩ : BufTy).Contents (Elt Ideal)) :
    Cert.ReferenceIdeal.Read.val_main_v26 (F := Ideal) x0 x1 x2 x3 x4 = Cert.Attn.result x0 x1 x2 x3 x4 := by
  funext i
  obtain ⟨b, q, e, rfl⟩ : ∃ (b : Fin 16384) (q : Fin 32) (e : Fin 64), i = ix3 b q e := ⟨i 0, i 1, i 2, eq_ix3 i⟩
  exact v26_read x0 x1 x2 x3 x4 b q e

end Cert.ReferenceIdeal.RefAttn

end
-- ==== Proof.lean ====
/-
  The certificate: a Pallas attention kernel over 128-row blocks of a [16384, 32, 64] input and its jnp
  reference compute the same array over the extended reals.

  Both programs project the input by four 64×64 weights (query, key, value, residual), split the 64 lanes
  into two heads of 32, take per head and batch row the softmax of query·keyᵀ over the key positions
  (row maximum from −∞ subtracted, exponentials, divided by their sum), weight the value projections by it,
  add the residual projection and clip below at zero.  The kernel does the four projections as ONE product
  with the weights laid side by side (column 64·j + e of the fused weight is column e of weight j) and
  handles one block of 128 batch rows per grid point; the reference does four products and moves the head
  axis by reshapes and transposes.  Entry by entry the two are the same formula (`Cert.Attn.result`), read
  off each side by following indices only: no law of arithmetic is used, so the finiteness of the inputs is
  never needed.

  The three runs: each kernel program (word level and idealized) runs through its one host line and its
  pipelined region, every point's body reading its two input blocks and covering its output block
  (`Kernel.Hand.frame`, `KernelIdeal.Hand.frame`); the reference is a straight line of host operations.
  The idealization changed no operation, so there is nothing to preserve.
-/
import proofs.«100594_j83674552861142_2_alg».proof.Defs
import proofs.«100594_j83674552861142_2_alg».proof.Proof.Gen.Kernel
import proofs.«100594_j83674552861142_2_alg».proof.Proof.Gen.Kernel.Skeleton
import proofs.«100594_j83674552861142_2_alg».proof.Proof.Gen.Kernel.Launch
import proofs.«100594_j83674552861142_2_alg».proof.Proof.Gen.Kernel.Points
import proofs.«100594_j83674552861142_2_alg».proof.Proof.Gen.KernelIdeal
import proofs.«100594_j83674552861142_2_alg».proof.Proof.Gen.KernelIdeal.Skeleton
import proofs.«100594_j83674552861142_2_alg».proof.Proof.Gen.KernelIdeal.Launch
import proofs.«100594_j83674552861142_2_alg».proof.Proof.Gen.KernelIdeal.Points
import proofs.«100594_j83674552861142_2_alg».proof.Proof.Gen.ReferenceIdeal
import proofs.«100594_j83674552861142_2_alg».proof.Proof.Gen.ReferenceIdeal.Run
import proofs.«100594_j83674552861142_2_alg».proof.Proof.Gen.ReferenceIdeal.Read
import proofs.«100594_j83674552861142_2_alg».proof.Proof.Gen.Pre_finite_inputs
import proofs.«100594_j83674552861142_2_alg».proof.Proof.KernelRun
import proofs.«100594_j83674552861142_2_alg».proof.Proof.KernelIdealRun
import proofs.«100594_j83674552861142_2_alg».proof.Proof.KernelValue
import proofs.«100594_j83674552861142_2_alg».proof.Proof.RefIsAttn
import Idealize.ShloMosaic.Adequacy
import Idealize.ShloMosaic.Init

noncomputable section

namespace Cert.Proof

open Idealize.ShloMosaic Idealize.ShloMosaic.TcCoe Idealize.SL.Sem

/-- The word-level kernel runs to the end without a fault and leaves its five argument arrays as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the idealized kernel's result array and the reference's both
    end at the specification's result of those arguments. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefAttn.ref_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
